-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x256 : Shape := ⟨2, ![20000, 256]⟩
abbrev S2x320000 : Shape := ⟨2, ![2, 320000]⟩
abbrev S128x256 : Shape := ⟨2, ![128, 256]⟩
abbrev S128 : Shape := ⟨1, ![128]⟩
abbrev S256 : Shape := ⟨1, ![256]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S256 : S_.BroadcastsInDim S256 (![] : Fin 0 → Fin S256.rank)
  reducesTo_S256_S_d0 : S256.ReducesTo [0] S_

variable [Facts]

def fn_part2 {F : FTy → Type} [FloatOps F] (main_arg8 : FVec F S256 .f32) (main_arg9 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  main_v43

def fn_part1 {F : FTy → Type} [FloatOps F] (main_arg5 : FVec F S128x256 .f32) (main_arg6 : FVec F S128 .f32) (main_arg7 : FVec F S128x256 .f32) (main_arg8 : FVec F S256 .f32) (main_arg9 : FVec F S256 .f32) (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_v33

def fn {F : FTy → Type} [FloatOps F] (main_arg0 : FVec F S20000x256 .f32) (main_arg1 : IVec S2x320000 32) (main_arg2 : FVec F S128x256 .f32) (main_arg3 : FVec F S128 .f32) (main_arg4 : FVec F S128x256 .f32) (main_arg5 : FVec F S128x256 .f32) (main_arg6 : FVec F S128 .f32) (main_arg7 : FVec F S128x256 .f32) (main_arg8 : FVec F S256 .f32) (main_arg9 : FVec F S256 .f32) : IVec S_ 1 :=
  let main_v0 : FVec F S20000x256 .f32 := Host.absf main_arg0
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x256 .f32 := Host.absf main_arg4
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_arg5 main_arg6 main_arg7 main_arg8 main_arg9 main_v13 main_v16
-- ==== Kernel.lean ====
abbrev S20000x256 : Shape := ⟨2, ![20000, 256]⟩
abbrev S2x320000 : Shape := ⟨2, ![2, 320000]⟩
abbrev S128x256 : Shape := ⟨2, ![128, 256]⟩
abbrev S128 : Shape := ⟨1, ![128]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S256x128 : Shape := ⟨2, ![256, 128]⟩
abbrev S4000x256 : Shape := ⟨2, ![4000, 256]⟩
abbrev S4000x128 : Shape := ⟨2, ![4000, 128]⟩
abbrev S1x128 : Shape := ⟨2, ![1, 128]⟩
abbrev S1x256 : Shape := ⟨2, ![1, 256]⟩

abbrev nBuf : Space → Nat
  | .hbm => 92
  | .vmem => 22
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S_, .f32⟩
  | .hbm, ⟨28, _⟩ => ⟨S320000, .f32⟩
  | .hbm, ⟨29, _⟩ => ⟨S_, .f32⟩
  | .hbm, ⟨30, _⟩ => ⟨S20000, .f32⟩
  | .hbm, ⟨31, _⟩ => ⟨S320000x1, .i32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .f32⟩
  | .hbm, ⟨36, _⟩ => ⟨S20000x1, .f32⟩
  | .hbm, ⟨37, _⟩ => ⟨S20000x256, .f32⟩
  | .hbm, ⟨38, _⟩ => ⟨S20000x256, .f32⟩
  | .hbm, ⟨39, _⟩ => ⟨S_, .i32⟩
  | .hbm, ⟨40, _⟩ => ⟨S320000, .i32⟩
  | .hbm, ⟨41, _⟩ => ⟨S320000, .i1⟩
  | .hbm, ⟨42, _⟩ => ⟨S_, .i32⟩
  | .hbm, ⟨43, _⟩ => ⟨S320000, .i32⟩
  | .hbm, ⟨44, _⟩ => ⟨S320000, .i32⟩
  | .hbm, ⟨45, _⟩ => ⟨S320000, .i32⟩
  | .hbm, ⟨46, _⟩ => ⟨S320000x1, .i32⟩
  | .hbm, ⟨47, _⟩ => ⟨S320000x256, .f32⟩
  | .hbm, ⟨48, _⟩ => ⟨S_, .f32⟩
  | .hbm, ⟨49, _⟩ => ⟨S20000x256, .f32⟩
  | .hbm, ⟨50, _⟩ => ⟨S320000x1, .i32⟩
  | .hbm, ⟨51, _⟩ => ⟨S20000x256, .f32⟩
  | .hbm, ⟨52, _⟩ => ⟨S_, .f32⟩
  | .hbm, ⟨53, _⟩ => ⟨S320000, .f32⟩
  | .hbm, ⟨54, _⟩ => ⟨S_, .f32⟩
  | .hbm, ⟨55, _⟩ => ⟨S20000, .f32⟩
  | .hbm, ⟨56, _⟩ => ⟨S320000x1, .i32⟩
  | .hbm, ⟨57, _⟩ => ⟨S20000, .f32⟩
  | .hbm, ⟨58, _⟩ => ⟨S_, .f32⟩
  | .hbm, ⟨59, _⟩ => ⟨S20000, .f32⟩
  | .hbm, ⟨60, _⟩ => ⟨S20000, .f32⟩
  | .hbm, ⟨61, _⟩ => ⟨S20000x1, .f32⟩
  | .hbm, ⟨62, _⟩ => ⟨S20000x256, .f32⟩
  | .hbm, ⟨63, _⟩ => ⟨S20000x256, .f32⟩
  | .hbm, ⟨64, _⟩ => ⟨S20000x256, .bf16⟩
  | .hbm, ⟨65, _⟩ => ⟨S20000x256, .bf16⟩
  | .hbm, ⟨66, _⟩ => ⟨S20000x256, .bf16⟩
  | .hbm, ⟨67, _⟩ => ⟨S256x128, .f32⟩
  | .hbm, ⟨68, _⟩ => ⟨S256x128, .bf16⟩
  | .hbm, ⟨69, _⟩ => ⟨S256x128, .f32⟩
  | .hbm, ⟨70, _⟩ => ⟨S256x128, .bf16⟩
  | .hbm, ⟨71, _⟩ => ⟨S256x128, .f32⟩
  | .hbm, ⟨72, _⟩ => ⟨S256x128, .bf16⟩
  | .hbm, ⟨73, _⟩ => ⟨S256x128, .f32⟩
  | .hbm, ⟨74, _⟩ => ⟨S256x128, .bf16⟩
  | .hbm, ⟨75, _⟩ => ⟨S20000x256, .f32⟩
  | .hbm, ⟨76, _⟩ => ⟨S_, .f32⟩
  | .hbm, ⟨77, _⟩ => ⟨S256, .f32⟩
  | .hbm, ⟨78, _⟩ => ⟨S1x256, .f32⟩
  | .hbm, ⟨79, _⟩ => ⟨S_, .f32⟩
  | .hbm, ⟨80, _⟩ => ⟨S1x256, .f32⟩
  | .hbm, ⟨81, _⟩ => ⟨S1x256, .f32⟩
  | .hbm, ⟨82, _⟩ => ⟨S20000x256, .f32⟩
  | .hbm, ⟨83, _⟩ => ⟨S20000x256, .f32⟩
  | .hbm, ⟨84, _⟩ => ⟨S20000x256, .f32⟩
  | .hbm, ⟨85, _⟩ => ⟨S_, .f32⟩
  | .hbm, ⟨86, _⟩ => ⟨S256, .f32⟩
  | .hbm, ⟨87, _⟩ => ⟨S1x256, .f32⟩
  | .hbm, ⟨88, _⟩ => ⟨S_, .f32⟩
  | .hbm, ⟨89, _⟩ => ⟨S1x256, .f32⟩
  | .hbm, ⟨90, _⟩ => ⟨S1x256, .f32⟩
  | .hbm, ⟨91, _⟩ => ⟨S20000x256, .f32⟩
  | .local _ .vmem, ⟨0, _⟩ => ⟨S4000x256, .bf16⟩
  | .local _ .vmem, ⟨1, _⟩ => ⟨S4000x256, .bf16⟩
  | .local _ .vmem, ⟨2, _⟩ => ⟨S4000x256, .bf16⟩
  | .local _ .vmem, ⟨3, _⟩ => ⟨S4000x256, .bf16⟩
  | .local _ .vmem, ⟨4, _⟩ => ⟨S4000x256, .bf16⟩
  | .local _ .vmem, ⟨5, _⟩ => ⟨S4000x256, .bf16⟩
  | .local _ .vmem, ⟨6, _⟩ => ⟨S256x128, .bf16⟩
  | .local _ .vmem, ⟨7, _⟩ => ⟨S128, .f32⟩
  | .local _ .vmem, ⟨8, _⟩ => ⟨S256x128, .bf16⟩
  | .local _ .vmem, ⟨9, _⟩ => ⟨S256x128, .bf16⟩
  | .local _ .vmem, ⟨10, _⟩ => ⟨S128, .f32⟩
  | .local _ .vmem, ⟨11, _⟩ => ⟨S256x128, .bf16⟩
  | .local _ .vmem, ⟨12, _⟩ => ⟨S4000x256, .f32⟩
  | .local _ .vmem, ⟨13, _⟩ => ⟨S4000x256, .f32⟩
  | .local _ .vmem, ⟨14, _⟩ => ⟨S4000x256, .f32⟩
  | .local _ .vmem, ⟨15, _⟩ => ⟨S4000x256, .f32⟩
  | .local _ .vmem, ⟨16, _⟩ => ⟨S1x256, .f32⟩
  | .local _ .vmem, ⟨17, _⟩ => ⟨S1x256, .f32⟩
  | .local _ .vmem, ⟨18, _⟩ => ⟨S256, .f32⟩
  | .local _ .vmem, ⟨19, _⟩ => ⟨S256, .f32⟩
  | .local _ .vmem, ⟨20, _⟩ => ⟨S4000x256, .f32⟩
  | .local _ .vmem, ⟨21, _⟩ => ⟨S4000x256, .f32⟩
  | _, _ => ⟨S20000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_cst_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  bitsLt_bf16_f32 : FTy.bits .bf16 < FTy.bits .f32
  transposes_S128x256_S256x128_1_0 : S128x256.Transposes [1, 0] S256x128
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  concatenates_S4000x128_S4000x128_S4000x256_d1 : Shape.Concatenates [S4000x128, S4000x128] S4000x256 1
  reducesTo_S20000x256_S256_d0 : S20000x256.ReducesTo [0] S256
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  bcast_S1x256_S20000x256_0_1 : S1x256.BroadcastsInDim S20000x256 (![0, 1] : Fin 2 → Fin S20000x256.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256_S256_0 : ∀ a, (![0] : Fin 1 → Nat) a + S256.size a ≤ S256.size a
  h_S256 : 0 < S256.numel
  broadcasts_S1x256_S4000x256 : S1x256.Broadcasts S4000x256
  shapeCasts_S256_S1x256 : S256.ShapeCasts S1x256
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S4000x256_S256x128_S4000x128_1_0_0_1_n_n_wf : DotDims.WF S4000x256 S256x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S20000x256.size a
  hwx0_0 : ∀ i : grid0.Coords, EltTy.bits .bf16 = 32 ∨ (Rect.block (s := S20000x256) S4000x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x256.size a ≤ S20000x256.size a
  hwx0_1 : ∀ i : grid0.Coords, EltTy.bits .bf16 = 32 ∨ (Rect.block (s := S20000x256) S4000x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S20000x256.size a
  hwx0_2 : ∀ i : grid0.Coords, EltTy.bits .bf16 = 32 ∨ (Rect.block (s := S20000x256) S4000x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .bf16 = 32 ∨ (Rect.block (s := S256x128) S256x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .bf16 = 32 ∨ (Rect.block (s := S256x128) S256x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .bf16 = 32 ∨ (Rect.block (s := S256x128) S256x128.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x256.size a ≤ S20000x256.size a
  hwx0_9 : ∀ i : grid0.Coords, EltTy.bits .f32 = 32 ∨ (Rect.block (s := S20000x256) S4000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S20000x256.size a
  hwx1_0 : ∀ i : grid1.Coords, EltTy.bits .f32 = 32 ∨ (Rect.block (s := S20000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x256.size a ≤ S20000x256.size a
  hwx1_5 : ∀ i : grid1.Coords, EltTy.bits .f32 = 32 ∨ (Rect.block (s := S20000x256) S4000x256.size (cc1_transform_5 i) (hinb1_5 i)).WholeWords (EltTy.packing .f32)

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf

abbrev win0_0 : Pipeline.Window sig grid0 :=
  Pipeline.Window.ofSpec (Memref.whole main_v43) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S4000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v42) S4000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v46) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v48) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v52) S256x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v53) S4000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v53) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v57) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v64) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v65) S4000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S20000x256 : Shape := ⟨2, ![20000, 256]⟩
abbrev S2x320000 : Shape := ⟨2, ![2, 320000]⟩
abbrev S128x256 : Shape := ⟨2, ![128, 256]⟩
abbrev S128 : Shape := ⟨1, ![128]⟩
abbrev S256 : Shape := ⟨1, ![256]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x256 : Shape := ⟨2, ![320000, 256]⟩
abbrev S20000 : Shape := ⟨1, ![20000]⟩
abbrev S20000x1 : Shape := ⟨2, ![20000, 1]⟩
abbrev S256x128 : Shape := ⟨2, ![256, 128]⟩
abbrev S20000x128 : Shape := ⟨2, ![20000, 128]⟩
abbrev S1x128 : Shape := ⟨2, ![1, 128]⟩
abbrev S1x256 : Shape := ⟨2, ![1, 256]⟩

abbrev nBuf : Space → Nat
  | .hbm => 114
  | .vmem => 0
  | .smem => 0
  | _ => 0

abbrev bufTy : (tb : Table) → Fin (tcTables nBuf tb) → BufTy
  | .hbm, ⟨0, _⟩ => ⟨S20000x256, .f32⟩
  | .hbm, ⟨1, _⟩ => ⟨S2x320000, .i32⟩
  | .hbm, ⟨2, _⟩ => ⟨S128x256, .f32⟩
  | .hbm, ⟨3, _⟩ => ⟨S128, .f32⟩
  | .hbm, ⟨4, _⟩ => ⟨S128x256, .f32⟩
  | .hbm, ⟨5, _⟩ => ⟨S128x256, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256, .f32⟩
  | .hbm, ⟨10, _⟩ => ⟨S1x320000, .i32⟩
  | .hbm, ⟨11, _⟩ => ⟨S320000, .i32⟩
  | .hbm, ⟨12, _⟩ => ⟨S1x320000, .i32⟩
  | .hbm, ⟨13, _⟩ => ⟨S320000, .i32⟩
  | .hbm, ⟨14, _⟩ => ⟨S_, .i32⟩
  | .hbm, ⟨15, _⟩ => ⟨S320000, .i32⟩
  | .hbm, ⟨16, _⟩ => ⟨S320000, .i1⟩
  | .hbm, ⟨17, _⟩ => ⟨S_, .i32⟩
  | .hbm, ⟨18, _⟩ => ⟨S320000, .i32⟩
  | .hbm, ⟨19, _⟩ => ⟨S320000, .i32⟩
  | .hbm, ⟨20, _⟩ => ⟨S320000, .i32⟩
  | .hbm, ⟨21, _⟩ => ⟨S320000x1, .i32⟩
  | .hbm, ⟨22, _⟩ => ⟨S320000x256, .f32⟩
  | .hbm, ⟨23, _⟩ => ⟨S_, .f32⟩
  | .hbm, ⟨24, _⟩ => ⟨S20000x256, .f32⟩
  | .hbm, ⟨25, _⟩ => ⟨S320000x1, .i32⟩
  | .hbm, ⟨26, _⟩ => ⟨S20000x256, .f32⟩
  | .hbm, ⟨27, _⟩ => ⟨S_, .f32⟩
  | .hbm, ⟨28, _⟩ => ⟨S320000, .f32⟩
  | .hbm, ⟨29, _⟩ => ⟨S_, .f32⟩
  | .hbm, ⟨30, _⟩ => ⟨S20000, .f32⟩
  | .hbm, ⟨31, _⟩ => ⟨S320000x1, .i32⟩
  | .hbm, ⟨32, _⟩ => ⟨S20000, .f32⟩
  | .hbm, ⟨33, _⟩ => ⟨S_, .f32⟩
  | .hbm, ⟨34, _⟩ => ⟨S20000, .f32⟩
  | .hbm, ⟨35, _⟩ => ⟨S20000, .f32⟩
  | .hbm, ⟨36, _⟩ => ⟨S20000x1, .f32⟩
  | .hbm, ⟨37, _⟩ => ⟨S20000x256, .f32⟩
  | .hbm, ⟨38, _⟩ => ⟨S20000x256, .f32⟩
  | .hbm, ⟨39, _⟩ => ⟨S256x128, .f32⟩
  | .hbm, ⟨40, _⟩ => ⟨S20000x128, .f32⟩
  | .hbm, ⟨41, _⟩ => ⟨S1x128, .f32⟩
  | .hbm, ⟨42, _⟩ => ⟨S20000x128, .f32⟩
  | .hbm, ⟨43, _⟩ => ⟨S20000x128, .f32⟩
  | .hbm, ⟨44, _⟩ => ⟨S256x128, .f32⟩
  | .hbm, ⟨45, _⟩ => ⟨S20000x128, .f32⟩
  | .hbm, ⟨46, _⟩ => ⟨S20000x128, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x256, .f32⟩
  | .hbm, ⟨56, _⟩ => ⟨S_, .f32⟩
  | .hbm, ⟨57, _⟩ => ⟨S20000x256, .f32⟩
  | .hbm, ⟨58, _⟩ => ⟨S320000x1, .i32⟩
  | .hbm, ⟨59, _⟩ => ⟨S20000x256, .f32⟩
  | .hbm, ⟨60, _⟩ => ⟨S_, .f32⟩
  | .hbm, ⟨61, _⟩ => ⟨S320000, .f32⟩
  | .hbm, ⟨62, _⟩ => ⟨S_, .f32⟩
  | .hbm, ⟨63, _⟩ => ⟨S20000, .f32⟩
  | .hbm, ⟨64, _⟩ => ⟨S320000x1, .i32⟩
  | .hbm, ⟨65, _⟩ => ⟨S20000, .f32⟩
  | .hbm, ⟨66, _⟩ => ⟨S_, .f32⟩
  | .hbm, ⟨67, _⟩ => ⟨S20000, .f32⟩
  | .hbm, ⟨68, _⟩ => ⟨S20000, .f32⟩
  | .hbm, ⟨69, _⟩ => ⟨S20000x1, .f32⟩
  | .hbm, ⟨70, _⟩ => ⟨S20000x256, .f32⟩
  | .hbm, ⟨71, _⟩ => ⟨S20000x256, .f32⟩
  | .hbm, ⟨72, _⟩ => ⟨S256x128, .f32⟩
  | .hbm, ⟨73, _⟩ => ⟨S20000x128, .f32⟩
  | .hbm, ⟨74, _⟩ => ⟨S1x128, .f32⟩
  | .hbm, ⟨75, _⟩ => ⟨S20000x128, .f32⟩
  | .hbm, ⟨76, _⟩ => ⟨S20000x128, .f32⟩
  | .hbm, ⟨77, _⟩ => ⟨S256x128, .f32⟩
  | .hbm, ⟨78, _⟩ => ⟨S20000x128, .f32⟩
  | .hbm, ⟨79, _⟩ => ⟨S20000x128, .f32⟩
  | .hbm, ⟨80, _⟩ => ⟨S20000x256, .f32⟩
  | .hbm, ⟨81, _⟩ => ⟨S_, .f32⟩
  | .hbm, ⟨82, _⟩ => ⟨S256, .f32⟩
  | .hbm, ⟨83, _⟩ => ⟨S_, .f32⟩
  | .hbm, ⟨84, _⟩ => ⟨S256, .f32⟩
  | .hbm, ⟨85, _⟩ => ⟨S256, .f32⟩
  | .hbm, ⟨86, _⟩ => ⟨S1x256, .f32⟩
  | .hbm, ⟨87, _⟩ => ⟨S20000x256, .f32⟩
  | .hbm, ⟨88, _⟩ => ⟨S20000x256, .f32⟩
  | .hbm, ⟨89, _⟩ => ⟨S20000x256, .f32⟩
  | .hbm, ⟨90, _⟩ => ⟨S_, .f32⟩
  | .hbm, ⟨91, _⟩ => ⟨S256, .f32⟩
  | .hbm, ⟨92, _⟩ => ⟨S_, .f32⟩
  | .hbm, ⟨93, _⟩ => ⟨S256, .f32⟩
  | .hbm, ⟨94, _⟩ => ⟨S256, .f32⟩
  | .hbm, ⟨95, _⟩ => ⟨S1x256, .f32⟩
  | .hbm, ⟨96, _⟩ => ⟨S20000x256, .f32⟩
  | .hbm, ⟨97, _⟩ => ⟨S20000x256, .f32⟩
  | .hbm, ⟨98, _⟩ => ⟨S_, .f32⟩
  | .hbm, ⟨99, _⟩ => ⟨S256, .f32⟩
  | .hbm, ⟨100, _⟩ => ⟨S256, .f32⟩
  | .hbm, ⟨101, _⟩ => ⟨S256, .f32⟩
  | .hbm, ⟨102, _⟩ => ⟨S1x256, .f32⟩
  | .hbm, ⟨103, _⟩ => ⟨S20000x256, .f32⟩
  | .hbm, ⟨104, _⟩ => ⟨S20000x256, .f32⟩
  | .hbm, ⟨105, _⟩ => ⟨S1x256, .f32⟩
  | .hbm, ⟨106, _⟩ => ⟨S20000x256, .f32⟩
  | .hbm, ⟨107, _⟩ => ⟨S20000x256, .f32⟩
  | .hbm, ⟨108, _⟩ => ⟨S1x256, .f32⟩
  | .hbm, ⟨109, _⟩ => ⟨S20000x256, .f32⟩
  | .hbm, ⟨110, _⟩ => ⟨S20000x256, .f32⟩
  | .hbm, ⟨111, _⟩ => ⟨S_, .f32⟩
  | .hbm, ⟨112, _⟩ => ⟨S20000x256, .f32⟩
  | .hbm, ⟨113, _⟩ => ⟨S20000x256, .f32⟩
  | _, _ => ⟨S20000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_4 : Ref sig .tc := ⟨.hbm, 47, rfl⟩
abbrev main_v31 : Ref sig .tc := ⟨.hbm, 48, rfl⟩
abbrev main_v32 : Ref sig .tc := ⟨.hbm, 49, rfl⟩
abbrev main_c_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_9 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_10 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_12 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_14 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call0_cst : Ref sig .tc := ⟨.hbm, 111, rfl⟩
abbrev main_call0_v0 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  bcast_S_S20000x256 : S_.BroadcastsInDim S20000x256 (![] : Fin 0 → Fin S20000x256.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x256_0_1 : S20000x1.BroadcastsInDim S20000x256 (![0, 1] : Fin 2 → Fin S20000x256.rank)
  transposes_S128x256_S256x128_1_0 : S128x256.Transposes [1, 0] S256x128
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  concatenates_S20000x128_S20000x128_S20000x256_d1 : Shape.Concatenates [S20000x128, S20000x128] S20000x256 1
  reducesTo_S20000x256_S256_d0 : S20000x256.ReducesTo [0] S256
  h_S_ : 0 < S_.numel
  bcast_S_S256 : S_.BroadcastsInDim S256 (![] : Fin 0 → Fin S256.rank)
  bcast_S256_S1x256_1 : S256.BroadcastsInDim S1x256 (![1] : Fin 1 → Fin S1x256.rank)
  bcast_S1x256_S20000x256_0_1 : S1x256.BroadcastsInDim S20000x256 (![0, 1] : Fin 2 → Fin S20000x256.rank)
  gather_S20000x256_S320000x1_S320000x256_1_0_n_n_0_1_1256_wf : GatherDims.WF S20000x256 S320000x1 S320000x256 [1] [0] [] [0] [] 1 ![1, 256]
  scatter_S20000x256_S320000x1_S320000x256_1_0_0_1_wf : ScatterDims.WF S20000x256 S320000x1 S320000x256 [1] [0] [0] 1
  scatter_S20000_S320000x1_S320000_n_0_0_1_wf : ScatterDims.WF S20000 S320000x1 S320000 [] [0] [0] 1
  dot_S20000x256_S256x128_S20000x128_1_0_0_1_n_n_wf : DotDims.WF S20000x256 S256x128 S20000x128 [1] [0] [0] [1] [] []

variable [Facts₀]

def gather_S20000x256_S320000x1_S320000x256_1_0_n_n_0_1_1256 : GatherDims S20000x256 S320000x1 S320000x256 where
  offsetDims := [1]
  collapsedSliceDims := [0]
  operandBatchingDims := []
  startIndicesBatchingDims := []
  startIndexMap := [0]
  indexVectorDim := 1
  sliceSizes := ![1, 256]
  wf := gather_S20000x256_S320000x1_S320000x256_1_0_n_n_0_1_1256_wf
def scatter_S20000x256_S320000x1_S320000x256_1_0_0_1 : ScatterDims S20000x256 S320000x1 S320000x256 where
  updateWindowDims := [1]
  insertedWindowDims := [0]
  scatterDimsToOperandDims := [0]
  indexVectorDim := 1
  wf := scatter_S20000x256_S320000x1_S320000x256_1_0_0_1_wf
def scatter_S20000_S320000x1_S320000_n_0_0_1 : ScatterDims S20000 S320000x1 S320000 where
  updateWindowDims := []
  insertedWindowDims := [0]
  scatterDimsToOperandDims := [0]
  indexVectorDim := 1
  wf := scatter_S20000_S320000x1_S320000_n_0_0_1_wf
def dot_S20000x256_S256x128_S20000x128_1_0_0_1_n_n : DotDims S20000x256 S256x128 S20000x128 where
  lhsContracting := [1]
  rhsContracting := [0]
  lhsNonContracting := [0]
  rhsNonContracting := [1]
  lhsBatch := []
  rhsBatch := []
  wf := dot_S20000x256_S256x128_S20000x128_1_0_0_1_n_n_wf

class Facts : Prop extends Facts₀ where

variable [Facts]
-- ==== Proof.Spec.lean ====
/-
  The layer this certificate is about, as functions of arrays, entry by entry, on the extended reals.

  A node r has 256 input features x(r, ·) and, per edge direction, the mean a(r, ·) of its neighbours' features.
  One direction's linear block sends node r to 128 features: at output feature q it is
      ∑ₖ a(r, k) · wl(k, q)  +  b(q)  +  ∑ₖ x(r, k) · wr(k, q),
  the two weight matrices given already transposed ([256, 128]). The hidden array puts the forward block in
  columns 0 … 127 and the backward block in columns 128 … 255. Batch normalisation then works column by column
  over all 20000 nodes: the column's mean μ(j) = (0 + ∑ₙ h(n, j)) / 20000, its variance
  σ²(j) = (0 + ∑ₙ (h(n, j) − μ(j))²) / 20000 (the biased one), and the result at (r, j) is
      max( ((h(r, j) − μ(j)) · rsqrt(σ²(j) + ε)) · γ(j) + β(j), 0 ).
  Float literals stay as their words: the same word stands on both sides and is never evaluated.
-/
import Idealize.ShloMosaic.PureOps.Ideal
import Idealize.ShloMosaic.Lib.ValueIdx

noncomputable section

namespace Cert.SageNorm

open Idealize.ShloMosaic Idealize.ShloMosaic.ValueIdx

/-- Nodes by features. -/
abbrev SN : Shape := ⟨2, ![20000, 256]⟩
/-- A transposed weight matrix: input feature by output feature. -/
abbrev SW : Shape := ⟨2, ![256, 128]⟩
/-- A bias. -/
abbrev SB : Shape := ⟨1, ![128]⟩
/-- A per-column parameter of the normalisation. -/
abbrev SG : Shape := ⟨1, ![256]⟩

/-- One direction's linear block at node `r`, output feature `q`. -/
def lin (a x : FVec Ideal SN .f32) (wl wr : FVec Ideal SW .f32) (b : FVec Ideal SB .f32) (r : Fin 20000) (q : Fin 128) : EReal :=
  (∑ k : Fin 256, a (ix2 r k) * wl (ix2 k q)) + b (ix1 q) + ∑ k : Fin 256, x (ix2 r k) * wr (ix2 k q)

/-- The hidden array at node `r`, column `j`: the forward block left of column 128, the backward block from it on. -/
def hidAt (af ab x : FVec Ideal SN .f32) (wlf wrf wlb wrb : FVec Ideal SW .f32) (bf bb : FVec Ideal SB .f32)
    (r : Fin 20000) (j : Fin 256) : EReal :=
  if h : j.val < 128 then lin af x wlf wrf bf r ⟨j.val, h⟩
  else lin ab x wlb wrb bb r ⟨j.val - 128, by have := j.isLt; omega⟩

/-- The hidden array. -/
def hid (af ab x : FVec Ideal SN .f32) (wlf wrf wlb wrb : FVec Ideal SW .f32) (bf bb : FVec Ideal SB .f32) :
    FVec Ideal SN .f32 :=
  fun i => hidAt af ab x wlf wrf wlb wrb bf bb ⟨(i 0).val, (i 0).isLt⟩ ⟨(i 1).val, (i 1).isLt⟩

theorem hid_ix2 (af ab x : FVec Ideal SN .f32) (wlf wrf wlb wrb : FVec Ideal SW .f32) (bf bb : FVec Ideal SB .f32)
    (r : Fin 20000) (j : Fin 256) :
    hid af ab x wlf wrf wlb wrb bf bb (ix2 r j) = hidAt af ab x wlf wrf wlb wrb bf bb r j := rfl

/-- Column `j`'s mean over the 20000 nodes (the sum started from the zero word, divided by the word of 20000). -/
def colMean (h : FVec Ideal SN .f32) (j : Fin 256) : EReal :=
  Ideal.div (Ideal.ofBits .f32 0x00000000#32 + ∑ n : Fin 20000, h (ix2 n j)) (Ideal.ofBits .f32 0x469C4000#32)

/-- Column `j`'s biased variance. -/
def colVar (h : FVec Ideal SN .f32) (j : Fin 256) : EReal :=
  Ideal.div (Ideal.ofBits .f32 0x00000000#32
      + ∑ n : Fin 20000, (h (ix2 n j) - colMean h j) * (h (ix2 n j) - colMean h j))
    (Ideal.ofBits .f32 0x469C4000#32)

/-- The normalised, rectified entry at node `r`, column `j`. -/
def normAt (h : FVec Ideal SN .f32) (g b : FVec Ideal SG .f32) (r : Fin 20000) (j : Fin 256) : EReal :=
  max (((h (ix2 r j) - colMean h j) * Ideal.rsqrt (colVar h j + Ideal.ofBits .f32 0x3727C5AC#32)) * g (ix1 j) + b (ix1 j))
    (Ideal.ofBits .f32 0x00000000#32)

/-- The normalised, rectified array. -/
def norm (h : FVec Ideal SN .f32) (g b : FVec Ideal SG .f32) : FVec Ideal SN .f32 :=
  fun i => normAt h g b ⟨(i 0).val, (i 0).isLt⟩ ⟨(i 1).val, (i 1).isLt⟩

theorem norm_ix2 (h : FVec Ideal SN .f32) (g b : FVec Ideal SG .f32) (r : Fin 20000) (j : Fin 256) :
    norm h g b (ix2 r j) = normAt h g b r j := rfl

end Cert.SageNorm

end
-- ==== Proof.Shared.lean ====
/-
  The part both programs compute with the same host operations, named once and carried as one function: the mean of the
  neighbours' feature rows per node, for either edge direction, and a weight matrix transposed.

  For the direction whose messages flow from row `s` of the edge table to row `d`: gather the feature rows at the
  (wrapped) source ends, add them up at the destination ends, count the edges at each destination the same way,
  and divide each node's sum by its count or by one, whichever is larger.
-/
import proofs.«143934_j72954314490489_1_alg».proof.Proof.Gen.ReferenceIdeal
import proofs.«143934_j72954314490489_1_alg».proof.Proof.Spec

noncomputable section

namespace Cert.SageNorm

open Idealize.ShloMosaic Cert.ReferenceIdeal
open Cert.ReferenceIdeal.Facts₀ Cert.ReferenceIdeal.Facts

/-- Row 0 of the edge table as a vector. -/
def edgeRow0 (e : IVec S2x320000 32) : IVec S320000 32 :=
  shapeCast _ (extractStridedSlice S1x320000 ![0, 0] e slices_S2x320000_S1x320000_0_0) shapeCasts_S1x320000_S320000
/-- Row 1 of the edge table as a vector. -/
def edgeRow1 (e : IVec S2x320000 32) : IVec S320000 32 :=
  shapeCast _ (extractStridedSlice S1x320000 ![1, 0] e slices_S2x320000_S1x320000_1_0) shapeCasts_S1x320000_S320000

/-- The mean of the feature rows gathered at the ends `s`, summed and counted at the ends `d`. -/
def meanAggr (x : FVec Ideal S20000x256 .f32) (s d : IVec S320000 32) : FVec Ideal S20000x256 .f32 :=
  Host.divf (F := Ideal)
    (Host.scatterAdd (F := Ideal) scatter_S20000x256_S320000x1_S320000x256_1_0_0_1
      (broadcastInDim S20000x256 ![] bcast_S_S20000x256 (constant (F := Ideal) S_ .f32 0x00000000#32))
      (broadcastInDim S320000x1 ![0] bcast_S320000_S320000x1_0 d)
      (Host.gather gather_S20000x256_S320000x1_S320000x256_1_0_n_n_0_1_1256 x
        (broadcastInDim S320000x1 ![0] bcast_S320000_S320000x1_0
          (select (cmpi .slt s (broadcastInDim S320000 ![] bcast_S_S320000 (constantI S_ 32 0#32)))
            (addi s (broadcastInDim S320000 ![] bcast_S_S320000 (constantI S_ 32 20000#32))) s))))
    (broadcastInDim S20000x256 ![0, 1] bcast_S20000x1_S20000x256_0_1
      (broadcastInDim S20000x1 ![0] bcast_S20000_S20000x1_0
        (maximumf
          (Host.scatterAdd (F := Ideal) scatter_S20000_S320000x1_S320000_n_0_0_1
            (broadcastInDim S20000 ![] bcast_S_S20000 (constant (F := Ideal) S_ .f32 0x00000000#32))
            (broadcastInDim S320000x1 ![0] bcast_S320000_S320000x1_0 d)
            (broadcastInDim S320000 ![] bcast_S_S320000 (constant (F := Ideal) S_ .f32 0x3F800000#32)))
          (broadcastInDim S20000 ![] bcast_S_S20000 (constant (F := Ideal) S_ .f32 0x3F800000#32)))))

/-- Messages from row 0's ends to row 1's. -/
def aggrF (x : FVec Ideal S20000x256 .f32) (e : IVec S2x320000 32) : FVec Ideal S20000x256 .f32 :=
  meanAggr x (edgeRow0 e) (edgeRow1 e)
/-- Messages from row 1's ends to row 0's. -/
def aggrB (x : FVec Ideal S20000x256 .f32) (e : IVec S2x320000 32) : FVec Ideal S20000x256 .f32 :=
  meanAggr x (edgeRow1 e) (edgeRow0 e)

/-- A weight matrix [128, 256] transposed to [256, 128]. -/
def wT (w : FVec Ideal S128x256 .f32) : FVec Ideal S256x128 .f32 :=
  transpose S256x128 [1, 0] w transposes_S128x256_S256x128_1_0

end Cert.SageNorm

end
-- ==== Proof.KRun.lean ====
/-
  The kernel program's whole run, read on the extended reals (or at any float instance), with its result named.

  @main is four segments: the host operations up to the first launch, the first launch (the two linear blocks and
  their concatenation, five row blocks of 4000 nodes), the host operations that take the column statistics, and
  the second launch (normalisation and rectifier, the same five row blocks). Every weakly fair execution
  terminates without a fault; afterwards the result array holds what the last segment boundary's contents say
  it holds, and every argument array is as launched.
-/
import proofs.«143934_j72954314490489_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents `W4`, the arguments as launched. -/
theorem run : θ_run defs (onTc (τ := τ) (main (F := F))) ⟨m, fun _ => 0, ρ⟩ (fun r => ∀ c : Dev nD,
      r.2.mem ((c.tc : Thread nD τ).loc main_v65) = W4 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v65 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.RunValue

end
-- ==== Proof.LibDotRows.lean ====
/-
  One tactic shared by the kernel's and the reference's matrix products: a contraction of a rank-2 left operand's
  axis 1 with a rank-2 right operand's axis 0, summed over the contraction index, is re-indexed as the sum over
  k of left (p, k) times right (k, q) at the output entry (p, q).
-/
import Idealize.ShloMosaic.PureOps.Ideal.Laws
import Idealize.ShloMosaic.Lib.ValueIdx

namespace Cert.Hand

open Idealize.ShloMosaic

set_option hygiene false in
/-- Closes `∑ c, l (D.lhsIdx (ix2 p q) c) * r (D.rhsIdx (ix2 p q) c) = ∑ k : Fin K, l (ix2 p k) * r (ix2 k q)` for a
    dimension record `D` that contracts the left operand's axis 1 (extent `K`) with the right operand's axis 0 and keeps
    the left operand's axis 0 and the right operand's axis 1 as the output's two axes; `SL` and `SR` are the operands'
    shapes. It expects `l`, `r`, `p`, `q` in scope under these names. -/
macro "dot_rows " D:term:max SL:term:max SR:term:max K:term:max : tactic => `(tactic| (
  have l0 : ∀ c, ((($D).lhsIdx (ValueIdx.ix2 p q) c) 0).val = p.val := fun c => by
    unfold DotDims.lhsIdx
    rw [dif_neg (show ¬(0 : Fin ($SL).rank) ∈ ($D).lhsBatch by decide), dif_pos (show (0 : Fin ($SL).rank) ∈ ($D).lhsNonContracting by decide)]
    rfl
  have l1 : ∀ c, ((($D).lhsIdx (ValueIdx.ix2 p q) c) 1).val = (c ⟨0, by decide⟩).val := fun c =>
    ($D).lhsIdx_val_of_single rfl (ValueIdx.ix2 p q) c
  have r0 : ∀ c, ((($D).rhsIdx (ValueIdx.ix2 p q) c) 0).val = (c ⟨0, by decide⟩).val := fun c =>
    ($D).rhsIdx_val_of_single rfl (ValueIdx.ix2 p q) c
  have r1 : ∀ c, ((($D).rhsIdx (ValueIdx.ix2 p q) c) 1).val = q.val := fun c => by
    unfold DotDims.rhsIdx
    rw [dif_neg (show ¬(1 : Fin ($SR).rank) ∈ ($D).rhsBatch by decide), dif_pos (show (1 : Fin ($SR).rank) ∈ ($D).rhsNonContracting by decide)]
    rfl
  rw [← Equiv.sum_comp (ValueIdx.contrEquiv1 $D $K rfl rfl).symm]
  refine Finset.sum_congr rfl fun k _ => ?_
  have hk := ValueIdx.contrEquiv1_symm_val $D $K rfl rfl k
  have el : ($D).lhsIdx (ValueIdx.ix2 p q) ((ValueIdx.contrEquiv1 $D $K rfl rfl).symm k) = ValueIdx.ix2 p k := funext fun a => Fin.ext (by
    match a with
    | ⟨0, _⟩ => exact l0 _
    | ⟨1, _⟩ => exact (l1 _).trans hk)
  have er : ($D).rhsIdx (ValueIdx.ix2 p q) ((ValueIdx.contrEquiv1 $D $K rfl rfl).symm k) = ValueIdx.ix2 k q := funext fun a => Fin.ext (by
    match a with
    | ⟨0, _⟩ => exact (r0 _).trans hk
    | ⟨1, _⟩ => exact r1 _)
  rw [el, er]))

end Cert.Hand
-- ==== Proof.LibRowBroadcast.lean ====
/-
  A row broadcast down the first axis, read at an index given by coordinates.

  A row, an array of shape [1, b], broadcast along the first axis to [a, b] repeats the row in every one of the
  a rows: at (r, j) it reads the row's entry j, whatever r is. (The companion of the column form, [a, 1]
  broadcast to [a, b], which reads the column's entry r at (r, j).)
-/
import Idealize.ShloMosaic.Lib.Pipeline.Value
import Idealize.ShloMosaic.Lib.ValueIdx

noncomputable section

namespace Cert.RowBroadcast

open Idealize.ShloMosaic Idealize.ShloMosaic.ValueIdx

/-- A row `[1, b]` broadcast along the first axis to `[a, b]` reads, at `(r, j)`, the row's entry `j`. -/
theorem broadcastTo_1b_ab_apply {α : Type} {a b : ℕ} (v : (⟨2, ![1, b]⟩ : Shape).Idx → α)
    (h : (⟨2, ![1, b]⟩ : Shape).Broadcasts ⟨2, ![a, b]⟩) (r : Fin a) (j : Fin b) :
    broadcastTo ⟨2, ![a, b]⟩ v h (ix2 r j) = v (ix2 (0 : Fin 1) j) := by
  refine broadcastTo_apply v h (ix2 r j) (ix2 (0 : Fin 1) j) fun ax => ?_
  match ax with
  | ⟨0, _⟩ => rfl
  | ⟨1, _⟩ =>
    show j.val = if b = 1 then 0 else j.val
    split
    · have := j.isLt; omega
    · rfl

end Cert.RowBroadcast

end
-- ==== Proof.LibRowCast.lean ====
/-
  A vector read as a row, and an index read at its axes.

  A vector of b entries reshaped to a row [1, b] keeps its entries in order: the row-major position of (u, j) in
  [1, b] is j, the position of j in [b]. So the row reads, at (u, j), entry j of the vector (the companion of the
  column form, a vector [a] reshaped to [a, 1], which reads entry r at (r, u)). A rank-2 index built from two
  coordinates, read back at axis 0 or 1, is that coordinate.
-/
import Idealize.ShloMosaic.Lib.Pipeline.Value
import Idealize.ShloMosaic.Lib.ValueIdx

noncomputable section

namespace Cert.RowCast

open Idealize.ShloMosaic Idealize.ShloMosaic.ValueIdx

/-- A vector of b entries cast to a row [1, b] reads, at (u, j), entry j: the two indices have the same
    row-major position. -/
theorem shapeCast_row_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by have := u.isLt; omega
    rw [Shape.rowMajor_val_two, Shape.rowMajor_val_one]
    show j.val = u.val * b + j.val
    rw [hu]; omega)

/-- A rank-2 index built from its coordinates, read at axis 0, is the first coordinate. -/
theorem ix2_at0 {n0 n1 : ℕ} (a : Fin n0) (b : Fin n1) : (ix2 a b) 0 = a := rfl
/-- Read at axis 1, the second. -/
theorem ix2_at1 {n0 n1 : ℕ} (a : Fin n0) (b : Fin n1) : (ix2 a b) 1 = b := rfl

end Cert.RowCast

end
-- ==== Proof.KHidPay.lean ====
/-
  The first launch's stored value, entry by entry.

  One block of the launch computes, for a block of 4000 nodes, two linear blocks side by side. Each linear block is a
  matrix product of the aggregated features with a weight matrix, plus the bias as a row repeated down the nodes, plus a
  matrix product of the nodes' own features with a second weight matrix; each product starts from the zero word, so it
  is the plain sum over the 256 input features. The two [4000, 128] results are laid side by side along the feature
  axis: a column left of 128 reads the first, a column from 128 on reads the second at that column less 128.
-/
import proofs.«143934_j72954314490489_1_alg».proof.Proof.Gen.KernelIdeal.Skeleton
import proofs.«143934_j72954314490489_1_alg».proof.Proof.LibDotRows
import proofs.«143934_j72954314490489_1_alg».proof.Proof.LibRowBroadcast
import proofs.«143934_j72954314490489_1_alg».proof.Proof.LibRowCast
import proofs.«143934_j72954314490489_1_alg».proof.Proof.Spec
import Idealize.ShloMosaic.Lib.Pipeline.Value
import Idealize.ShloMosaic.Lib.ValueIdx
import Idealize.ShloMosaic.PureOps.Ideal.Laws

noncomputable section

namespace Cert.KernelIdeal.HidValue

open Idealize.ShloMosaic Idealize.ShloMosaic.ValueIdx Cert.KernelIdeal Cert.KernelIdeal.Gen Cert.Hand Cert.SageNorm

/-- A matrix product [4000, 256] · [256, 128] started from the zero word, at (p, q): the sum over the 256 shared
    features of the products. -/
theorem matmul_zero_apply (l : FVec Ideal S4000x256 .bf16) (r : FVec Ideal S256x128 .bf16) (p : Fin 4000) (q : Fin 128) :
    matmul dot_S4000x256_S256x128_S4000x128_1_0_0_1_n_n none l r (constant S4000x128 .f32 0x00000000#32) (ix2 p q)
      = ∑ k : Fin 256, l (ix2 p k) * r (ix2 k q) := by
  refine (Ideal.matmul_constant_zero_apply dot_S4000x256_S256x128_S4000x128_1_0_0_1_n_n none l r (ix2 p q)).trans ?_
  dot_rows dot_S4000x256_S256x128_S4000x128_1_0_0_1_n_n S4000x256 S256x128 256

/-- A bias vector cast to a row and repeated down the 4000 nodes, at (p, q): the bias's entry q. -/
theorem bias_rows_apply (b : FVec Ideal S128 .f32) (p : Fin 4000) (q : Fin 128) :
    broadcastTo S4000x128 (shapeCast S1x128 b shapeCasts_S128_S1x128) broadcasts_S1x128_S4000x128 (ix2 p q) = b (ix1 q) :=
  (Cert.RowBroadcast.broadcastTo_1b_ab_apply _ broadcasts_S1x128_S4000x128 p q).trans
    (Cert.RowCast.shapeCast_row_apply b shapeCasts_S128_S1x128 0 q)

/-- One linear block of the launch at (p, q). -/
theorem lin_block_apply (a x : FVec Ideal S4000x256 .bf16) (wl wr : FVec Ideal S256x128 .bf16) (b : FVec Ideal S128 .f32)
    (p : Fin 4000) (q : Fin 128) :
    addf (addf (matmul dot_S4000x256_S256x128_S4000x128_1_0_0_1_n_n none a wl (constant S4000x128 .f32 0x00000000#32))
        (broadcastTo S4000x128 (shapeCast S1x128 b shapeCasts_S128_S1x128) broadcasts_S1x128_S4000x128))
      (matmul dot_S4000x256_S256x128_S4000x128_1_0_0_1_n_n none x wr (constant S4000x128 .f32 0x00000000#32)) (ix2 p q)
      = (∑ k : Fin 256, a (ix2 p k) * wl (ix2 k q)) + b (ix1 q) + ∑ k : Fin 256, x (ix2 p k) * wr (ix2 k q) := by
  rw [addf_apply, addf_apply, matmul_zero_apply, matmul_zero_apply, bias_rows_apply]

/-- The stored value at (p, j): the first linear block left of column 128, the second from it on. -/
theorem pay_apply (v0 v2 v4 : Vec Ideal S4000x256 .bf16) (v6 v8 v10 v12 : Vec Ideal S256x128 .bf16) (v14 v15 : Vec Ideal S128 .f32)
    (p : Fin 4000) (j : Fin 256) :
    k0_pay1 v0 v2 v4 v6 v8 v10 v12 v14 v15 (ix2 p j)
      = if h : j.val < 128 then
          (∑ k : Fin 256, v0 (ix2 p k) * v6 (ix2 k ⟨j.val, h⟩)) + v14 (ix1 ⟨j.val, h⟩) + ∑ k : Fin 256, v4 (ix2 p k) * v8 (ix2 k ⟨j.val, h⟩)
        else
          (∑ k : Fin 256, v2 (ix2 p k) * v10 (ix2 k ⟨j.val - 128, by have := j.isLt; omega⟩)) + v15 (ix1 ⟨j.val - 128, by have := j.isLt; omega⟩)
            + ∑ k : Fin 256, v4 (ix2 p k) * v12 (ix2 k ⟨j.val - 128, by have := j.isLt; omega⟩) := by
  unfold k0_pay1
  simp only [shapeCast_self]
  split
  · next h =>
    refine (concatenate_pair_apply_left (t := S4000x256) (s₁ := S4000x128) (s₂ := S4000x128) (1 : Fin 2) _ _ concatenates_S4000x128_S4000x128_S4000x256_d1 (ix2 p j) rfl
      (ix2 p ⟨j.val, h⟩) (fun b => match b with | ⟨0, _⟩ => rfl | ⟨1, _⟩ => rfl)).trans ?_
    exact lin_block_apply v0 v4 v6 v8 v14 p ⟨j.val, h⟩
  · next h =>
    have hj : j.val - 128 < 128 := by have := j.isLt; omega
    refine (concatenate_pair_apply_right (t := S4000x256) (s₁ := S4000x128) (s₂ := S4000x128) (1 : Fin 2) _ _ concatenates_S4000x128_S4000x128_S4000x256_d1 (ix2 p j) rfl rfl
      (ix2 p ⟨j.val - 128, hj⟩) (fun b hb => match b, hb with | ⟨0, _⟩, _ => rfl | ⟨1, _⟩, hb => absurd rfl hb) ?_).trans ?_
    · show (j.val - 128) + 128 = j.val
      omega
    · exact lin_block_apply v2 v4 v10 v12 v15 p ⟨j.val - 128, hj⟩

/-- The stored value for the block of nodes 4000·T … 4000·T + 3999 is the hidden array's entries at those nodes, when the
    launch's operands hold: the two aggregates' and the features' rows of that block, the four transposed weight
    matrices, the two biases. -/
theorem pay_eq_hidAt (af ab x : FVec Ideal SN .f32) (wlf wrf wlb wrb : FVec Ideal SW .f32) (bf bb : FVec Ideal SB .f32)
    (v0 v2 v4 : Vec Ideal S4000x256 .bf16) (v6 v8 v10 v12 : Vec Ideal S256x128 .bf16) (v14 v15 : Vec Ideal S128 .f32)
    (T : ℕ) (hT : T < 5)
    (h0 : ∀ (p : Fin 4000) (k : Fin 256), v0 (ix2 p k) = af (ix2 (⟨4000 * T + p.val, by have := p.isLt; omega⟩ : Fin 20000) k))
    (h2 : ∀ (p : Fin 4000) (k : Fin 256), v2 (ix2 p k) = ab (ix2 (⟨4000 * T + p.val, by have := p.isLt; omega⟩ : Fin 20000) k))
    (h4 : ∀ (p : Fin 4000) (k : Fin 256), v4 (ix2 p k) = x (ix2 (⟨4000 * T + p.val, by have := p.isLt; omega⟩ : Fin 20000) k))
    (h6 : ∀ (k : Fin 256) (q : Fin 128), v6 (ix2 k q) = wlf (ix2 k q))
    (h8 : ∀ (k : Fin 256) (q : Fin 128), v8 (ix2 k q) = wrf (ix2 k q))
    (h10 : ∀ (k : Fin 256) (q : Fin 128), v10 (ix2 k q) = wlb (ix2 k q))
    (h12 : ∀ (k : Fin 256) (q : Fin 128), v12 (ix2 k q) = wrb (ix2 k q))
    (h14 : ∀ q : Fin 128, v14 (ix1 q) = bf (ix1 q))
    (h15 : ∀ q : Fin 128, v15 (ix1 q) = bb (ix1 q))
    (y : S4000x256.Idx) :
    k0_pay1 v0 v2 v4 v6 v8 v10 v12 v14 v15 y
      = hidAt af ab x wlf wrf wlb wrb bf bb ⟨4000 * T + (y 0).val, by have := idx2_lt0 y; omega⟩ ⟨(y 1).val, idx2_lt1 y⟩ := by
  obtain ⟨p, j, rfl⟩ : ∃ (p : Fin 4000) (j : Fin 256), y = ix2 p j := ⟨y 0, y 1, eq_ix2 y⟩
  show _ = hidAt af ab x wlf wrf wlb wrb bf bb ⟨4000 * T + p.val, by have := p.isLt; omega⟩ j
  rw [pay_apply]
  unfold hidAt
  by_cases h : j.val < 128
  · rw [dif_pos h, dif_pos h]
    unfold lin
    simp only [h0, h4, h6, h8, h14]
  · rw [dif_neg h, dif_neg h]
    unfold lin
    simp only [h2, h4, h10, h12, h15]

end Cert.KernelIdeal.HidValue

end
-- ==== Proof.KHidArrays.lean ====
/-
  What the first launch's input arrays hold when the launch is entered.

  Before the first launch the host computes, from the node features and the edge table, the mean of the
  neighbours' feature rows in either edge direction, and transposes the four weight matrices; each of these, and the
  node features themselves, is then narrowed to the sixteen-bit format on its way into the launch. On the extended
  reals a narrowing changes nothing, so each array the launch reads is the shared host value of the launch memory's
  arguments: the forward means, the backward means, the features, a transposed weight matrix, or a bias untouched.
-/
import proofs.«143934_j72954314490489_1_alg».proof.Proof.Gen.KernelIdeal.Frame
import proofs.«143934_j72954314490489_1_alg».proof.Proof.Shared
import Idealize.ShloMosaic.Lib.StableHlo.Run
import Idealize.ShloMosaic.Lib.ValueIdx

noncomputable section

namespace Cert.KernelIdeal.HidArrays

open Idealize.ShloMosaic Idealize.ShloMosaic.TcCoe Idealize.ShloMosaic.ValueIdx Idealize.SL.Sem Cert.KernelIdeal
  Cert.KernelIdeal.Gen Cert.SageNorm Idealize.ShloMosaic.StableHlo

variable (m : (ℓ : Loc nD τ sig) → Buf (Elt Ideal) ℓ) (ρ : Dev nD → PrngReg) (c : Dev nD)

set_option maxHeartbeats 8000000 in
/-- All nine at once: what each of the first launch's nine input arrays holds after the host operations before it. -/
theorem all_eq :
    ((V1 m ρ c main_v43 : S20000x256.Idx → EReal) = aggrF (m ((c : Thread nD τ).loc main_arg0)) (m ((c : Thread nD τ).loc main_arg1)))
    ∧ ((V1 m ρ c main_v44 : S20000x256.Idx → EReal) = aggrB (m ((c : Thread nD τ).loc main_arg0)) (m ((c : Thread nD τ).loc main_arg1)))
    ∧ ((V1 m ρ c main_v42 : S20000x256.Idx → EReal) = (m ((c : Thread nD τ).loc main_arg0)))
    ∧ ((V1 m ρ c main_v46 : S256x128.Idx → EReal) = wT (m ((c : Thread nD τ).loc main_arg2)))
    ∧ ((V1 m ρ c main_v48 : S256x128.Idx → EReal) = wT (m ((c : Thread nD τ).loc main_arg4)))
    ∧ ((V1 m ρ c main_v50 : S256x128.Idx → EReal) = wT (m ((c : Thread nD τ).loc main_arg5)))
    ∧ ((V1 m ρ c main_v52 : S256x128.Idx → EReal) = wT (m ((c : Thread nD τ).loc main_arg7)))
    ∧ ((V1 m ρ c main_arg3 : S128.Idx → EReal) = (m ((c : Thread nD τ).loc main_arg3)))
    ∧ ((V1 m ρ c main_arg6 : S128.Idx → EReal) = (m ((c : Thread nD τ).loc main_arg6))) := by
  show (StableHlo.after hostOps0 (W0 m ρ c) (Proc.devRef .tc main_v43) = _)
    ∧ (StableHlo.after hostOps0 (W0 m ρ c) (Proc.devRef .tc main_v44) = _)
    ∧ (StableHlo.after hostOps0 (W0 m ρ c) (Proc.devRef .tc main_v42) = _)
    ∧ (StableHlo.after hostOps0 (W0 m ρ c) (Proc.devRef .tc main_v46) = _)
    ∧ (StableHlo.after hostOps0 (W0 m ρ c) (Proc.devRef .tc main_v48) = _)
    ∧ (StableHlo.after hostOps0 (W0 m ρ c) (Proc.devRef .tc main_v50) = _)
    ∧ (StableHlo.after hostOps0 (W0 m ρ c) (Proc.devRef .tc main_v52) = _)
    ∧ (StableHlo.after hostOps0 (W0 m ρ c) (Proc.devRef .tc main_arg3) = _)
    ∧ (StableHlo.after hostOps0 (W0 m ρ c) (Proc.devRef .tc main_arg6) = _)
  unfold hostOps0
  after_results_simp
  refine ⟨?_, ?_, ?_, ?_, ?_, ?_, ?_, ?_, ?_⟩ <;> first | rfl | trivial

/-- The forward neighbour means, narrowed: on the extended reals, the shared forward means of the two arguments. -/
theorem v43_eq : (V1 m ρ c main_v43 : S20000x256.Idx → EReal) = aggrF (m ((c : Thread nD τ).loc main_arg0)) (m ((c : Thread nD τ).loc main_arg1)) :=
  (all_eq m ρ c).1

/-- The backward neighbour means, narrowed: the shared backward means. -/
theorem v44_eq : (V1 m ρ c main_v44 : S20000x256.Idx → EReal) = aggrB (m ((c : Thread nD τ).loc main_arg0)) (m ((c : Thread nD τ).loc main_arg1)) :=
  (all_eq m ρ c).2.1

/-- The node features, narrowed: the features themselves. -/
theorem v42_eq : (V1 m ρ c main_v42 : S20000x256.Idx → EReal) = (m ((c : Thread nD τ).loc main_arg0)) :=
  (all_eq m ρ c).2.2.1

/-- The forward block's neighbour weights, transposed and narrowed. -/
theorem v46_eq : (V1 m ρ c main_v46 : S256x128.Idx → EReal) = wT (m ((c : Thread nD τ).loc main_arg2)) :=
  (all_eq m ρ c).2.2.2.1

/-- The forward block's own-feature weights, transposed and narrowed. -/
theorem v48_eq : (V1 m ρ c main_v48 : S256x128.Idx → EReal) = wT (m ((c : Thread nD τ).loc main_arg4)) :=
  (all_eq m ρ c).2.2.2.2.1

/-- The backward block's neighbour weights, transposed and narrowed. -/
theorem v50_eq : (V1 m ρ c main_v50 : S256x128.Idx → EReal) = wT (m ((c : Thread nD τ).loc main_arg5)) :=
  (all_eq m ρ c).2.2.2.2.2.1

/-- The backward block's own-feature weights, transposed and narrowed. -/
theorem v52_eq : (V1 m ρ c main_v52 : S256x128.Idx → EReal) = wT (m ((c : Thread nD τ).loc main_arg7)) :=
  (all_eq m ρ c).2.2.2.2.2.2.1

/-- The forward bias: no host operation writes it. -/
theorem arg3_eq : (V1 m ρ c main_arg3 : S128.Idx → EReal) = (m ((c : Thread nD τ).loc main_arg3)) :=
  (all_eq m ρ c).2.2.2.2.2.2.2.1

/-- The backward bias: no host operation writes it. -/
theorem arg6_eq : (V1 m ρ c main_arg6 : S128.Idx → EReal) = (m ((c : Thread nD τ).loc main_arg6)) :=
  (all_eq m ρ c).2.2.2.2.2.2.2.2

end Cert.KernelIdeal.HidArrays

end
-- ==== Proof.KHidCover.lean ====
/-
  The five row blocks of the first launch's output window cover its array.

  The output window cuts the 20000 × 256 array into blocks of 4000 rows and all 256 columns; grid point t writes
  back the block whose row index is t and whose column index is 0, that is rows 4000 t … 4000 t + 3999. Row r
  therefore lies in the block of point r / 4000, and every point writes its block back.
-/
import proofs.«143934_j72954314490489_1_alg».proof.Proof.Gen.KernelIdeal.Frame
import Idealize.ShloMosaic.Lib.Pipeline.Value

noncomputable section

namespace Cert.KernelIdeal.HidCover

open Cert.KernelIdeal Cert.KernelIdeal.Gen Idealize.ShloMosaic Idealize.ShloMosaic.TcCoe Idealize.SL.Sem

/-- The output window's index map, decided over the five grid points: point t's block has row index t and
    column index 0. -/
theorem idx_facts : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Point t's block has row index t. -/
theorem idx_row (t : Fin cfg0.N) : win0_9.index t (0 : Fin 2) = t.val := (idx_facts t).1
/-- Point t's block has column index 0. -/
theorem idx_col (t : Fin cfg0.N) : win0_9.index t (1 : Fin 2) = 0 := (idx_facts t).2

/-- The grid has five points. -/
theorem N_eq : cfg0.N = 5 := N_0

/-- An index of the array is in point t's block iff each coordinate is in the block's range on its axis. -/
theorem mem_blk (t : Fin cfg0.N) (i : S20000x256.Idx) :
    i ∈ ((cfg0.win 9).blk t).view.set ↔ ∀ a : Fin 2, win0_9.index t a * S4000x256.size a ≤ (i a).val
      ∧ (i a).val < win0_9.index t a * S4000x256.size a + S4000x256.size a := by
  show i ∈ ((View.whole main_v53).slice (win0_9.rect t)).set ↔ _
  rw [View.set_slice_whole, Rect.mem_set_unit]
  exact Iff.rfl

/-- The same with the extents as numbers: rows 4000 t … 4000 t + 3999, every column. -/
theorem mem_blk_rows (t : Fin cfg0.N) (i : S20000x256.Idx) :
    i ∈ ((cfg0.win 9).blk t).view.set ↔ t.val * 4000 ≤ (i 0).val ∧ (i 0).val < t.val * 4000 + 4000 := by
  rw [mem_blk]
  have hi1 : (i 1).val < 256 := (i 1).isLt
  constructor
  · intro h
    have b0 : win0_9.index t (0 : Fin 2) * 4000 ≤ (i 0).val ∧ (i 0).val < win0_9.index t (0 : Fin 2) * 4000 + 4000 := h 0
    rw [idx_row t] at b0
    exact b0
  · intro h a
    match a with
    | ⟨0, _⟩ =>
      show win0_9.index t (0 : Fin 2) * 4000 ≤ (i 0).val ∧ (i 0).val < win0_9.index t (0 : Fin 2) * 4000 + 4000
      rw [idx_row t]; exact h
    | ⟨1, _⟩ =>
      show win0_9.index t (1 : Fin 2) * 256 ≤ (i 1).val ∧ (i 1).val < win0_9.index t (1 : Fin 2) * 256 + 256
      rw [idx_col t]; omega

/-- Every index of the array lies in the block of some point that writes its block back: row r in block r / 4000. -/
theorem cover (i : S20000x256.Idx) : ∃ t : Fin cfg0.N, (cfg0.win 9).flush t = true ∧ i ∈ ((cfg0.win 9).blk t).view.set := by
  have hi0 : (i 0).val < 20000 := (i 0).isLt
  obtain ⟨t, ht⟩ : ∃ t : Fin cfg0.N, t.val = (i 0).val / 4000 :=
    ⟨⟨(i 0).val / 4000, by rw [N_eq]; omega⟩, rfl⟩
  refine ⟨t, flush0_9 t, ?_⟩
  rw [mem_blk_rows]
  omega

end Cert.KernelIdeal.HidCover

end
-- ==== Proof.KHid.lean ====
/-
  The first launch leaves the specification's hidden array.

  The launch walks five blocks of 4000 nodes. At block t the three row-blocked operands (the two aggregates and the
  features) are read at rows 4000·t … 4000·t + 3999, every column; the weight matrices and the biases are read whole
  at every block. The stored block is therefore the hidden array's entries at those rows, and it is written back to the
  same rows of the result. The five blocks cover the 20000 nodes, so the result ends holding the hidden array.
-/
import proofs.«143934_j72954314490489_1_alg».proof.Proof.Gen.KernelIdeal.Frame
import proofs.«143934_j72954314490489_1_alg».proof.Proof.Shared
import proofs.«143934_j72954314490489_1_alg».proof.Proof.KHidPay
import proofs.«143934_j72954314490489_1_alg».proof.Proof.KHidArrays
import proofs.«143934_j72954314490489_1_alg».proof.Proof.KHidCover
import Idealize.ShloMosaic.Lib.Pipeline.Value
import Idealize.ShloMosaic.Lib.ValueIdx
import Idealize.ShloMosaic.PureOps.Ideal.Laws

set_option maxRecDepth 16384

noncomputable section

namespace Cert.KernelIdeal.HidValue

open Idealize.ShloMosaic Idealize.ShloMosaic.TcCoe Idealize.ShloMosaic.ValueIdx Idealize.SL.Sem
open Cert.KernelIdeal Cert.KernelIdeal.Gen Cert.SageNorm
open Idealize.ShloMosaic.Pipeline (Dat Cfg Window)

/-- The zero offsets of a whole rank-2 block. -/
theorem zero_off2 : (![0, 0] : Fin 2 → Nat) = fun _ => 0 := funext fun a => by fin_cases a <;> rfl
/-- The zero offset of a whole rank-1 block. -/
theorem zero_off1 : (![0] : Fin 1 → Nat) = fun _ => 0 := funext fun a => by fin_cases a; rfl

/-- The block index maps over the five points: the row-blocked operands and the result sit at block row t, column
    block 0; the weight matrices and the biases at block 0 throughout. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- A row of block t is a node below 20000. -/
theorem row_lt (t : Fin cfg0.N) (p : Fin 4000) : 4000 * t.val + p.val < 20000 := by
  have h5 : cfg0.N = 5 := N_0
  have := t.isLt; have := p.isLt; omega

section Blocks

variable (V : (c : Dev nD) → (b : Ref sig .tc) → Buf (Elt Ideal) ((c : Thread nD τ).loc b))

/-- Operand 0's block at point t: rows 4000·t … of its array. -/
theorem rows_aggrF (c : Dev nD) (t : Fin cfg0.N) (p : Fin 4000) (k : Fin 256) :
    (iblk0 V c 0 t : Vec Ideal S4000x256 .bf16) (ix2 p k)
      = (V c main_v43 : S20000x256.Idx → EReal) (ix2 (⟨4000 * t.val + p.val, row_lt t p⟩ : Fin 20000) k) := by
  have e := idx_facts t
  show V c main_v43 (((cfg0.win 0).blk t).view.emb (ix2 p k)) = _
  refine congrArg _ (funext fun a => Fin.ext ?_)
  match a with
  | ⟨0, _⟩ => show win0_0.index t (0 : Fin 2) * 4000 + 1 * p.val = 4000 * t.val + p.val; omega
  | ⟨1, _⟩ => show win0_0.index t (1 : Fin 2) * 256 + 1 * k.val = k.val; omega

/-- Operand 1's block at point t: rows 4000·t … of its array. -/
theorem rows_aggrB (c : Dev nD) (t : Fin cfg0.N) (p : Fin 4000) (k : Fin 256) :
    (iblk0 V c 1 t : Vec Ideal S4000x256 .bf16) (ix2 p k)
      = (V c main_v44 : S20000x256.Idx → EReal) (ix2 (⟨4000 * t.val + p.val, row_lt t p⟩ : Fin 20000) k) := by
  have e := idx_facts t
  show V c main_v44 (((cfg0.win 1).blk t).view.emb (ix2 p k)) = _
  refine congrArg _ (funext fun a => Fin.ext ?_)
  match a with
  | ⟨0, _⟩ => show win0_1.index t (0 : Fin 2) * 4000 + 1 * p.val = 4000 * t.val + p.val; omega
  | ⟨1, _⟩ => show win0_1.index t (1 : Fin 2) * 256 + 1 * k.val = k.val; omega

/-- Operand 2's block at point t: rows 4000·t … of its array. -/
theorem rows_feat (c : Dev nD) (t : Fin cfg0.N) (p : Fin 4000) (k : Fin 256) :
    (iblk0 V c 2 t : Vec Ideal S4000x256 .bf16) (ix2 p k)
      = (V c main_v42 : S20000x256.Idx → EReal) (ix2 (⟨4000 * t.val + p.val, row_lt t p⟩ : Fin 20000) k) := by
  have e := idx_facts t
  show V c main_v42 (((cfg0.win 2).blk t).view.emb (ix2 p k)) = _
  refine congrArg _ (funext fun a => Fin.ext ?_)
  match a with
  | ⟨0, _⟩ => show win0_2.index t (0 : Fin 2) * 4000 + 1 * p.val = 4000 * t.val + p.val; omega
  | ⟨1, _⟩ => show win0_2.index t (1 : Fin 2) * 256 + 1 * k.val = k.val; omega

/-- Operand 3's block at any point: its whole array. -/
theorem whole_wlf (c : Dev nD) (t : Fin cfg0.N) (k : Fin 256) (q : Fin 128) :
    (iblk0 V c 3 t : Vec Ideal S256x128 .bf16) (ix2 k q) = (V c main_v46 : S256x128.Idx → EReal) (ix2 k q) := by
  have e := idx_facts t
  show V c main_v46 (((cfg0.win 3).blk t).view.emb (ix2 k q)) = _
  refine congrArg _ (funext fun a => Fin.ext ?_)
  match a with
  | ⟨0, _⟩ => show win0_3.index t (0 : Fin 2) * 256 + 1 * k.val = k.val; omega
  | ⟨1, _⟩ => show win0_3.index t (1 : Fin 2) * 128 + 1 * q.val = q.val; omega

/-- Operand 4's block at any point: its whole array. -/
theorem whole_bf (c : Dev nD) (t : Fin cfg0.N) (q : Fin 128) :
    (iblk0 V c 4 t : Vec Ideal S128 .f32) (ix1 q) = (V c main_arg3 : S128.Idx → EReal) (ix1 q) := by
  have e := idx_facts t
  show V c main_arg3 (((cfg0.win 4).blk t).view.emb (ix1 q)) = _
  refine congrArg _ (funext fun a => Fin.ext ?_)
  match a with
  | ⟨0, _⟩ => show win0_4.index t (0 : Fin 1) * 128 + 1 * q.val = q.val; omega

/-- Operand 5's block at any point: its whole array. -/
theorem whole_wrf (c : Dev nD) (t : Fin cfg0.N) (k : Fin 256) (q : Fin 128) :
    (iblk0 V c 5 t : Vec Ideal S256x128 .bf16) (ix2 k q) = (V c main_v48 : S256x128.Idx → EReal) (ix2 k q) := by
  have e := idx_facts t
  show V c main_v48 (((cfg0.win 5).blk t).view.emb (ix2 k q)) = _
  refine congrArg _ (funext fun a => Fin.ext ?_)
  match a with
  | ⟨0, _⟩ => show win0_5.index t (0 : Fin 2) * 256 + 1 * k.val = k.val; omega
  | ⟨1, _⟩ => show win0_5.index t (1 : Fin 2) * 128 + 1 * q.val = q.val; omega

/-- Operand 6's block at any point: its whole array. -/
theorem whole_wlb (c : Dev nD) (t : Fin cfg0.N) (k : Fin 256) (q : Fin 128) :
    (iblk0 V c 6 t : Vec Ideal S256x128 .bf16) (ix2 k q) = (V c main_v50 : S256x128.Idx → EReal) (ix2 k q) := by
  have e := idx_facts t
  show V c main_v50 (((cfg0.win 6).blk t).view.emb (ix2 k q)) = _
  refine congrArg _ (funext fun a => Fin.ext ?_)
  match a with
  | ⟨0, _⟩ => show win0_6.index t (0 : Fin 2) * 256 + 1 * k.val = k.val; omega
  | ⟨1, _⟩ => show win0_6.index t (1 : Fin 2) * 128 + 1 * q.val = q.val; omega

/-- Operand 7's block at any point: its whole array. -/
theorem whole_bb (c : Dev nD) (t : Fin cfg0.N) (q : Fin 128) :
    (iblk0 V c 7 t : Vec Ideal S128 .f32) (ix1 q) = (V c main_arg6 : S128.Idx → EReal) (ix1 q) := by
  have e := idx_facts t
  show V c main_arg6 (((cfg0.win 7).blk t).view.emb (ix1 q)) = _
  refine congrArg _ (funext fun a => Fin.ext ?_)
  match a with
  | ⟨0, _⟩ => show win0_7.index t (0 : Fin 1) * 128 + 1 * q.val = q.val; omega

/-- Operand 8's block at any point: its whole array. -/
theorem whole_wrb (c : Dev nD) (t : Fin cfg0.N) (k : Fin 256) (q : Fin 128) :
    (iblk0 V c 8 t : Vec Ideal S256x128 .bf16) (ix2 k q) = (V c main_v52 : S256x128.Idx → EReal) (ix2 k q) := by
  have e := idx_facts t
  show V c main_v52 (((cfg0.win 8).blk t).view.emb (ix2 k q)) = _
  refine congrArg _ (funext fun a => Fin.ext ?_)
  match a with
  | ⟨0, _⟩ => show win0_8.index t (0 : Fin 2) * 256 + 1 * k.val = k.val; omega
  | ⟨1, _⟩ => show win0_8.index t (1 : Fin 2) * 128 + 1 * q.val = q.val; omega

end Blocks

variable (m : (ℓ : Loc nD τ sig) → Buf (Elt Ideal) ℓ) (ρ : Dev nD → PrngReg)

/-- What point t writes back is block t of the hidden array. -/
theorem flushed_eq (c : Dev nD) (t : Fin cfg0.N) :
    (dat0 (V1 m ρ) c).flushed 9 t = ((cfg0.win 9).blk t).view.read (Elt Ideal)
      (hid (aggrF (m ((c : Thread nD τ).loc main_arg0)) (m ((c : Thread nD τ).loc main_arg1))) (aggrB (m ((c : Thread nD τ).loc main_arg0)) (m ((c : Thread nD τ).loc main_arg1))) (m ((c : Thread nD τ).loc main_arg0)) (wT (m ((c : Thread nD τ).loc main_arg2))) (wT (m ((c : Thread nD τ).loc main_arg4))) (wT (m ((c : Thread nD τ).loc main_arg5))) (wT (m ((c : Thread nD τ).loc main_arg7))) (m ((c : Thread nD τ).loc main_arg3)) (m ((c : Thread nD τ).loc main_arg6))) := by
  show (cfg0.win 9).cut (grid0.coords t) ((dat0 (V1 m ρ) c).after 9 t) = _
  rw [after0_9]
  unfold out0_9
  rw [View.canon_unit_zero zero_off2]
  simp only [View.ld_unit_zero (S := S4000x256) zero_off2, View.ld_unit_zero (S := S256x128) zero_off2,
    View.ld_unit_zero (S := S128) zero_off1]
  have ht : t.val < 5 := by have h5 : cfg0.N = 5 := N_0; have := t.isLt; omega
  have e := idx_facts t
  funext y
  have hy0 : (y 0).val < 4000 := (y 0).isLt
  have hy1 : (y 1).val < 256 := (y 1).isLt
  have he : ((cfg0.win 9).blk t).view.emb y
      = ix2 (⟨4000 * t.val + (y 0).val, by omega⟩ : Fin 20000) (⟨(y 1).val, hy1⟩ : Fin 256) := by
    funext a; apply Fin.ext
    match a with
    | ⟨0, _⟩ => show win0_9.index t (0 : Fin 2) * 4000 + 1 * (y 0).val = 4000 * t.val + (y 0).val; omega
    | ⟨1, _⟩ => show win0_9.index t (1 : Fin 2) * 256 + 1 * (y 1).val = (y 1).val; omega
  show k0_pay1 (iblk0 (V1 m ρ) c 0 t) (iblk0 (V1 m ρ) c 1 t) (iblk0 (V1 m ρ) c 2 t) (iblk0 (V1 m ρ) c 3 t)
      (iblk0 (V1 m ρ) c 5 t) (iblk0 (V1 m ρ) c 6 t) (iblk0 (V1 m ρ) c 8 t) (iblk0 (V1 m ρ) c 4 t) (iblk0 (V1 m ρ) c 7 t) y
    = (hid (aggrF (m ((c : Thread nD τ).loc main_arg0)) (m ((c : Thread nD τ).loc main_arg1))) (aggrB (m ((c : Thread nD τ).loc main_arg0)) (m ((c : Thread nD τ).loc main_arg1))) (m ((c : Thread nD τ).loc main_arg0)) (wT (m ((c : Thread nD τ).loc main_arg2))) (wT (m ((c : Thread nD τ).loc main_arg4))) (wT (m ((c : Thread nD τ).loc main_arg5))) (wT (m ((c : Thread nD τ).loc main_arg7))) (m ((c : Thread nD τ).loc main_arg3)) (m ((c : Thread nD τ).loc main_arg6))) (((cfg0.win 9).blk t).view.emb y)
  rw [he, hid_ix2]
  exact pay_eq_hidAt _ _ _ _ _ _ _ _ _ _ _ _ _ _ _ _ _ _ t.val ht
    (fun p k => (rows_aggrF (V1 m ρ) c t p k).trans (congrFun (HidArrays.v43_eq m ρ c) _))
    (fun p k => (rows_aggrB (V1 m ρ) c t p k).trans (congrFun (HidArrays.v44_eq m ρ c) _))
    (fun p k => (rows_feat (V1 m ρ) c t p k).trans (congrFun (HidArrays.v42_eq m ρ c) _))
    (fun k q => (whole_wlf (V1 m ρ) c t k q).trans (congrFun (HidArrays.v46_eq m ρ c) _))
    (fun k q => (whole_wrf (V1 m ρ) c t k q).trans (congrFun (HidArrays.v48_eq m ρ c) _))
    (fun k q => (whole_wlb (V1 m ρ) c t k q).trans (congrFun (HidArrays.v50_eq m ρ c) _))
    (fun k q => (whole_wrb (V1 m ρ) c t k q).trans (congrFun (HidArrays.v52_eq m ρ c) _))
    (fun q => (whole_bf (V1 m ρ) c t q).trans (congrFun (HidArrays.arg3_eq m ρ c) _))
    (fun q => (whole_bb (V1 m ρ) c t q).trans (congrFun (HidArrays.arg6_eq m ρ c) _))
    y

/-- The result array after the launch is the hidden array: the five written-back blocks cover it. -/
theorem final (m : (ℓ : Loc nD τ sig) → Buf (Elt Ideal) ℓ) (ρ : Dev nD → PrngReg) (c : Dev nD) :
    (dat0 (V1 m ρ) c).arrAt 9 cfg0.N
      = hid (aggrF (m ((c : Thread nD τ).loc main_arg0)) (m ((c : Thread nD τ).loc main_arg1))) (aggrB (m ((c : Thread nD τ).loc main_arg0)) (m ((c : Thread nD τ).loc main_arg1))) (m ((c : Thread nD τ).loc main_arg0)) (wT (m ((c : Thread nD τ).loc main_arg2))) (wT (m ((c : Thread nD τ).loc main_arg4))) (wT (m ((c : Thread nD τ).loc main_arg5))) (wT (m ((c : Thread nD τ).loc main_arg7))) (m ((c : Thread nD τ).loc main_arg3)) (m ((c : Thread nD τ).loc main_arg6)) :=
  (dat0 (V1 m ρ) c).arrAt_eq_of_cover 9 _ (fun t _ => flushed_eq m ρ c t) HidCover.cover

end Cert.KernelIdeal.HidValue

end
-- ==== Proof.KNormPay.lean ====
/-
  The normalisation launch's arithmetic at one entry.

  The second launch's body reads a block of 4000 rows of the hidden array, the mean row and the variance row
  (each [1, 256]) and the two per-column parameter vectors, and stores, at row p and column j of the block,
      max( ((h(p, j) − μ(0, j)) · rsqrt(σ²(0, j) + ε)) · γ(j) + β(j), 0 ):
  the two rows are repeated down the 4000 rows, the parameter vectors are first read as rows and then repeated,
  and ε and 0 are splat constants.
-/
import proofs.«143934_j72954314490489_1_alg».proof.Proof.Gen.KernelIdeal.Skeleton
import proofs.«143934_j72954314490489_1_alg».proof.Proof.LibRowBroadcast
import proofs.«143934_j72954314490489_1_alg».proof.Proof.LibRowCast
import Idealize.ShloMosaic.Lib.Pipeline.Value
import Idealize.ShloMosaic.Lib.ValueIdx
import Idealize.ShloMosaic.PureOps.Ideal.Laws

noncomputable section

namespace Cert.KernelIdeal.NormValue

open Idealize.ShloMosaic Idealize.ShloMosaic.ValueIdx Cert.KernelIdeal Cert.KernelIdeal.Gen

/-- The stored value at row `p`, column `j` of the block. -/
theorem pay_apply (v0 : Vec Ideal S4000x256 .f32) (v2 v4 : Vec Ideal S1x256 .f32) (v6 v7 : Vec Ideal S256 .f32)
    (p : Fin 4000) (j : Fin 256) :
    k1_pay1 v0 v2 v4 v6 v7 (ix2 p j)
      = max (((v0 (ix2 p j) - v2 (ix2 0 j)) * Ideal.rsqrt (v4 (ix2 0 j) + Ideal.ofBits .f32 0x3727C5AC#32)) * v6 (ix1 j) + v7 (ix1 j))
          (Ideal.ofBits .f32 0x00000000#32) := by
  unfold k1_pay1
  simp only [shapeCast_self]
  rw [maximumf_apply, addf_apply, mulf_apply, mulf_apply, subf_apply]
  rw [Cert.RowBroadcast.broadcastTo_1b_ab_apply, Cert.RowBroadcast.broadcastTo_1b_ab_apply,
    Cert.RowBroadcast.broadcastTo_1b_ab_apply, Cert.RowBroadcast.broadcastTo_1b_ab_apply,
    Cert.RowCast.shapeCast_row_apply, Cert.RowCast.shapeCast_row_apply]
  rfl

end Cert.KernelIdeal.NormValue

end
-- ==== Proof.KNormStats.lean ====
/-
  What the second launch finds in its input arrays: the hidden array as the first launch left it, the two
  statistic rows the host operations between the launches compute from it, and the two parameter vectors as launched.

  From the hidden array h ([20000, 256]) the host operations form, column by column, the sum started from the
  zero word, read as a row [1, 256] and divided by the word of 20000 (the mean row μ); then h − μ with μ repeated
  down the rows, its square, the column sums of the squares, again as a row divided by the word of 20000 (the
  variance row σ²). Read at column j these are the specification's column mean and biased column variance of h.
-/
import proofs.«143934_j72954314490489_1_alg».proof.Proof.Gen.KernelIdeal.Frame
import proofs.«143934_j72954314490489_1_alg».proof.Proof.Spec
import Idealize.ShloMosaic.Lib.Pipeline.Value
import Idealize.ShloMosaic.Lib.ValueIdx
import Idealize.ShloMosaic.PureOps.Ideal.Laws

noncomputable section

namespace Cert.KernelIdeal.NormValue

open Idealize.ShloMosaic Idealize.ShloMosaic.TcCoe Idealize.ShloMosaic.ValueIdx Idealize.SL.Sem
open Cert.KernelIdeal Cert.KernelIdeal.Gen Cert.SageNorm

/-! ## The host operations as functions of the hidden array -/

/-- The mean row of `h`: column sums from the zero word, as a row, over the word of 20000. -/
def meanRow (h : FVec Ideal S20000x256 .f32) : FVec Ideal S1x256 .f32 :=
  Host.divf (F := Ideal)
    (broadcastInDim S1x256 ![1] bcast_S256_S1x256_1
      (Host.reduceAdd (F := Ideal) h (constant (F := Ideal) S_ .f32 0x00000000#32) reducesTo_S20000x256_S256_d0 h_S_))
    (broadcastInDim S1x256 ![] bcast_S_S1x256 (constant (F := Ideal) S_ .f32 0x469C4000#32))

/-- `h` minus its mean row repeated down the rows. -/
def centred (h : FVec Ideal S20000x256 .f32) : FVec Ideal S20000x256 .f32 :=
  subf h (broadcastInDim S20000x256 ![0, 1] bcast_S1x256_S20000x256_0_1 (meanRow h))

/-- The variance row of `h`: column sums of the squared centred entries, as a row, over the word of 20000. -/
def varRow (h : FVec Ideal S20000x256 .f32) : FVec Ideal S1x256 .f32 :=
  Host.divf (F := Ideal)
    (broadcastInDim S1x256 ![1] bcast_S256_S1x256_1
      (Host.reduceAdd (F := Ideal) (mulf (centred h) (centred h)) (constant (F := Ideal) S_ .f32 0x00000000#32)
        reducesTo_S20000x256_S256_d0 h_S_))
    (broadcastInDim S1x256 ![] bcast_S_S1x256 (constant (F := Ideal) S_ .f32 0x469C4000#32))

/-- After the host operations between the launches the mean row's buffer holds `meanRow` of the hidden array's. -/
theorem after_meanRow (W : Valuation τ sig (Elt Ideal)) :
    StableHlo.after hostOps1 W (Proc.devRef .tc main_v57) = meanRow (W (Proc.devRef .tc main_v53)) := by
  unfold meanRow
  dsimp only [Gen.hostOps1]
  after_results

/-- … and the variance row's buffer `varRow` of it. -/
theorem after_varRow (W : Valuation τ sig (Elt Ideal)) :
    StableHlo.after hostOps1 W (Proc.devRef .tc main_v64) = varRow (W (Proc.devRef .tc main_v53)) := by
  unfold varRow centred meanRow
  dsimp only [Gen.hostOps1]
  after_results

/-! ## The rows read at a column -/

/-- The host's quotient of two rows, entry by entry. -/
theorem hostDivf_apply (a b : FVec Ideal S1x256 .f32) (i : S1x256.Idx) :
    Host.divf (F := Ideal) a b i = Ideal.div (a i) (b i) := rfl

/-- A vector of 256 entries read as a row: at (0, j) it is entry j. -/
theorem rowOfVec_apply {α : Type} (y : S256.Idx → α) (j : Fin 256) :
    broadcastInDim S1x256 ![1] bcast_S256_S1x256_1 y (ix2 0 j) = y (ix1 j) :=
  broadcastInDim_apply _ bcast_S256_S1x256_1 y (ix2 0 j) (ix1 j) (fun a => match a with
    | ⟨0, _⟩ => by show j.val = if (256 : Nat) = 1 then 0 else j.val; rw [if_neg (by decide)])

/-- A scalar word repeated along a row is that word at every entry. -/
theorem rowOfScalar_apply (w : BitVec 32) (i : S1x256.Idx) :
    broadcastInDim S1x256 ![] bcast_S_S1x256 (constant (F := Ideal) S_ .f32 w) i = Ideal.ofBits .f32 w :=
  broadcastInDim_apply _ bcast_S_S1x256 (constant (F := Ideal) S_ .f32 w) i ix0 (fun a => a.elim0)

/-- A row repeated down the 20000 rows: at (n, j) it is the row's entry j. -/
theorem rowsOfRow_apply {α : Type} (x : S1x256.Idx → α) (n : Fin 20000) (j : Fin 256) :
    broadcastInDim S20000x256 ![0, 1] bcast_S1x256_S20000x256_0_1 x (ix2 n j) = x (ix2 0 j) :=
  broadcastInDim_apply _ bcast_S1x256_S20000x256_0_1 x (ix2 n j) (ix2 0 j) (fun a => match a with
    | ⟨0, _⟩ => by show (0 : Nat) = if (1 : Nat) = 1 then 0 else n.val; rw [if_pos rfl]
    | ⟨1, _⟩ => by show j.val = if (256 : Nat) = 1 then 0 else j.val; rw [if_neg (by decide)])

/-- The host's column sums started from a word: at column j, the word plus the sum over the 20000 rows. -/
theorem colSum_apply (y : FVec Ideal S20000x256 .f32) (w : BitVec 32) (j : Fin 256) :
    Host.reduceAdd (F := Ideal) y (constant (F := Ideal) S_ .f32 w) reducesTo_S20000x256_S256_d0 h_S_ (ix1 j)
      = Ideal.ofBits .f32 w + ∑ n : Fin 20000, y (ix2 n j) := by
  simp only [Host.reduceAdd, Ideal.hostReduceAdd_def]
  rw [Ideal.hostReduceAdd_single reducesTo_S20000x256_S256_d0 (by decide)]
  refine congrArg (_ + ·) (Finset.sum_congr rfl fun k _ => ?_)
  exact congrArg y (funext fun a => Fin.ext (by match a with | ⟨0, _⟩ => rfl | ⟨1, _⟩ => rfl))

/-- The mean row at column j is the specification's column mean. -/
theorem meanRow_apply (h : FVec Ideal S20000x256 .f32) (j : Fin 256) : meanRow h (ix2 0 j) = colMean h j := by
  unfold meanRow colMean
  rw [hostDivf_apply, rowOfVec_apply, rowOfScalar_apply, colSum_apply]

/-- The centred array at (n, j). -/
theorem centred_apply (h : FVec Ideal S20000x256 .f32) (n : Fin 20000) (j : Fin 256) :
    centred h (ix2 n j) = h (ix2 n j) - colMean h j := by
  unfold centred
  rw [subf_apply, rowsOfRow_apply, meanRow_apply]

/-- The variance row at column j is the specification's biased column variance. -/
theorem varRow_apply (h : FVec Ideal S20000x256 .f32) (j : Fin 256) : varRow h (ix2 0 j) = colVar h j := by
  unfold varRow colVar
  rw [hostDivf_apply, rowOfVec_apply, rowOfScalar_apply, colSum_apply]
  refine congrArg (fun s : EReal => Ideal.div (Ideal.ofBits .f32 0x00000000#32 + s) (Ideal.ofBits .f32 0x469C4000#32))
    (Finset.sum_congr rfl fun n _ => ?_)
  rw [mulf_apply, centred_apply]

/-! ## The second launch's input arrays at its entry -/

variable (m : (ℓ : Loc nD τ sig) → Buf (Elt Ideal) ℓ) (ρ : Dev nD → PrngReg)

/-- The host operations between the launches do not write the hidden array. -/
theorem entry_hidden (c : Dev nD) : V3 m ρ c main_v53 = W2 m ρ c (Proc.devRef .tc main_v53) :=
  StableHlo.after_of_forall_not_mem (b := Proc.devRef .tc main_v53) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The mean row's array at the launch's entry, at column j, is the column mean of the hidden array. -/
theorem entry_mean (c : Dev nD) (j : Fin 256) :
    (V3 m ρ c main_v57 : S1x256.Idx → EReal) (ix2 0 j) = colMean (W2 m ρ c (Proc.devRef .tc main_v53)) j :=
  (congrFun (after_meanRow (W2 m ρ c)) (ix2 0 j)).trans (meanRow_apply _ j)

/-- The variance row's array at the launch's entry, at column j, is the column variance of the hidden array. -/
theorem entry_var (c : Dev nD) (j : Fin 256) :
    (V3 m ρ c main_v64 : S1x256.Idx → EReal) (ix2 0 j) = colVar (W2 m ρ c (Proc.devRef .tc main_v53)) j :=
  (congrFun (after_varRow (W2 m ρ c)) (ix2 0 j)).trans (varRow_apply _ j)

/-- No host operation and no launch writes the scale vector: at the second launch's entry it is as launched. -/
theorem entry_scale (c : Dev nD) : V3 m ρ c main_arg8 = m ((c : Thread nD τ).loc main_arg8) :=
  calc W3 m ρ c (Proc.devRef .tc main_arg8)
    _ = W2 m ρ c (Proc.devRef .tc main_arg8) := StableHlo.after_of_forall_not_mem (b := Proc.devRef .tc main_arg8) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

/-- … nor the shift vector. -/
theorem entry_shift (c : Dev nD) : V3 m ρ c main_arg9 = m ((c : Thread nD τ).loc main_arg9) :=
  calc W3 m ρ c (Proc.devRef .tc main_arg9)
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

end Cert.KernelIdeal.NormValue

end
-- ==== Proof.KNormCover.lean ====
/-
  The second launch writes its result back in five row blocks, and together they cover the whole array.

  The launch's grid has five points t = 0 … 4. Its result window (window 5) and its first operand's window
  (window 0) have blocks of 4000 rows by 256 columns at block index (t, 0): rows 4000 t … 4000 t + 3999, every
  column. The four other windows (the two rows of column statistics and the two parameter rows) are whole arrays,
  at block index 0 at every point. Row r of the [20000, 256] array lies in the block of point r / 4000, and every
  point writes its block back, so every index of the array is covered.
-/
import proofs.«143934_j72954314490489_1_alg».proof.Proof.Gen.KernelIdeal.Frame
import Idealize.ShloMosaic.Lib.Pipeline.Value

noncomputable section

namespace Cert.KernelIdeal.NormCover

open Idealize.ShloMosaic Idealize.ShloMosaic.TcCoe Idealize.SL.Sem Cert.KernelIdeal Cert.KernelIdeal.Gen
open Idealize.ShloMosaic.Pipeline (Dat Cfg Window)

/-- The launch has five grid points. -/
theorem N_eq : cfg1.N = 5 := by decide

/-- At point t the first operand's window and the result's window are at block index (t, 0). -/
theorem idx_rows : ∀ t : Fin cfg1.N,
    win1_0.index t (0 : Fin 2) = t.val ∧ win1_0.index t (1 : Fin 2) = 0
    ∧ win1_5.index t (0 : Fin 2) = t.val ∧ win1_5.index t (1 : Fin 2) = 0 :=
  (by decide +kernel : ∀ t : Fin grid1.N, _)

/-- The four whole-array windows are at block index 0 at every point. -/
theorem idx_whole : ∀ t : Fin cfg1.N,
    win1_1.index t (0 : Fin 2) = 0 ∧ win1_1.index t (1 : Fin 2) = 0
    ∧ win1_2.index t (0 : Fin 2) = 0 ∧ win1_2.index t (1 : Fin 2) = 0
    ∧ win1_3.index t (0 : Fin 1) = 0
    ∧ win1_4.index t (0 : Fin 1) = 0 :=
  (by decide +kernel : ∀ t : Fin grid1.N, _)

/-- An index of the result array is in point t's block iff each coordinate is in the block's range on its axis. -/
theorem mem_blk (t : Fin cfg1.N) (i : S20000x256.Idx) :
    i ∈ ((cfg1.win 5).blk t).view.set ↔ ∀ a : Fin 2, win1_5.index t a * S4000x256.size a ≤ (i a).val ∧ (i a).val < win1_5.index t a * S4000x256.size a + S4000x256.size a := by
  show i ∈ ((View.whole main_v65).slice (win1_5.rect t)).set ↔ _
  rw [View.set_slice_whole, Rect.mem_set_unit]
  exact Iff.rfl

/-- The same for the first operand's array and its window. -/
theorem mem_blk0 (t : Fin cfg1.N) (i : S20000x256.Idx) :
    i ∈ ((cfg1.win 0).blk t).view.set ↔ ∀ a : Fin 2, win1_0.index t a * S4000x256.size a ≤ (i a).val ∧ (i a).val < win1_0.index t a * S4000x256.size a + S4000x256.size a := by
  show i ∈ ((View.whole main_v53).slice (win1_0.rect t)).set ↔ _
  rw [View.set_slice_whole, Rect.mem_set_unit]
  exact Iff.rfl

/-- Point t's block of the result array in numbers: rows 4000 t … 4000 t + 3999, all 256 columns. -/
theorem mem_blk_rows (t : Fin cfg1.N) (i : S20000x256.Idx) :
    i ∈ ((cfg1.win 5).blk t).view.set ↔ 4000 * t.val ≤ (i 0).val ∧ (i 0).val < 4000 * t.val + 4000 := by
  have hi1 : (i 1).val < 256 := (i 1).isLt
  obtain ⟨-, -, e0, e1⟩ := idx_rows t
  rw [mem_blk]
  constructor
  · intro h
    have b0 : win1_5.index t (0 : Fin 2) * 4000 ≤ (i 0).val ∧ (i 0).val < win1_5.index t (0 : Fin 2) * 4000 + 4000 := h 0
    omega
  · intro h a
    match a with
    | ⟨0, _⟩ =>
      show win1_5.index t (0 : Fin 2) * 4000 ≤ (i 0).val ∧ (i 0).val < win1_5.index t (0 : Fin 2) * 4000 + 4000
      omega
    | ⟨1, _⟩ =>
      show win1_5.index t (1 : Fin 2) * 256 ≤ (i 1).val ∧ (i 1).val < win1_5.index t (1 : Fin 2) * 256 + 256
      omega

/-- Every index of the result array is in the block of some point that writes it back: row r is in block r / 4000. -/
theorem cover (i : S20000x256.Idx) : ∃ t : Fin cfg1.N, (cfg1.win 5).flush t = true ∧ i ∈ ((cfg1.win 5).blk t).view.set := by
  have hi0 : (i 0).val < 20000 := (i 0).isLt
  obtain ⟨t, ht⟩ : ∃ t : Fin cfg1.N, t.val = (i 0).val / 4000 :=
    ⟨⟨(i 0).val / 4000, by rw [N_eq]; omega⟩, rfl⟩
  refine ⟨t, flush1_5 t, ?_⟩
  rw [mem_blk_rows]
  omega

end Cert.KernelIdeal.NormCover

end
-- ==== Proof.KNorm.lean ====
/-
  The second launch leaves the specification's normalisation of the hidden array.

  The launch walks five blocks of 4000 rows. At block t it reads rows 4000t … 4000t + 3999 of the hidden array h,
  the whole mean row, the whole variance row and the two whole parameter vectors, and writes back the same rows of
  its result. The stored entry at row p of the block and column j is
      max( ((h(4000t + p, j) − μ(j)) · rsqrt(σ²(j) + ε)) · γ(j) + β(j), 0 ),
  with μ(j), σ²(j) the column mean and biased column variance of h: the specification's entry at row 4000t + p.
  Row r of the array lies in block r / 4000, so the five blocks fill the array and the array ends as the
  specification's normalised, rectified array of h.
-/
import proofs.«143934_j72954314490489_1_alg».proof.Proof.Gen.KernelIdeal.Frame
import proofs.«143934_j72954314490489_1_alg».proof.Proof.Spec
import proofs.«143934_j72954314490489_1_alg».proof.Proof.KNormPay
import proofs.«143934_j72954314490489_1_alg».proof.Proof.KNormStats
import proofs.«143934_j72954314490489_1_alg».proof.Proof.KNormCover
import Idealize.ShloMosaic.Lib.Pipeline.Value
import Idealize.ShloMosaic.Lib.ValueIdx
import Idealize.ShloMosaic.PureOps.Ideal.Laws

set_option maxRecDepth 16384

noncomputable section

namespace Cert.KernelIdeal.NormValue

open Idealize.ShloMosaic Idealize.ShloMosaic.TcCoe Idealize.ShloMosaic.ValueIdx Idealize.SL.Sem
open Cert.KernelIdeal Cert.KernelIdeal.Gen Cert.SageNorm
open Idealize.ShloMosaic.Pipeline (Dat Cfg Window)

theorem zeros2 : (![0, 0] : Fin 2 → Nat) = fun _ => 0 := funext fun a => by fin_cases a <;> rfl
theorem zeros1 : (![0] : Fin 1 → Nat) = fun _ => 0 := funext fun a => by fin_cases a <;> rfl

/-- One stored entry is the specification's: the block's entry `y` of the hidden rows is `h` at `i`, `i` in the same
    column as `y`, the two rows the column statistics of `h`, the two vectors the parameters. -/
theorem point_eq (h : FVec Ideal S20000x256 .f32) (g b : FVec Ideal S256 .f32)
    (x0 : Vec Ideal S4000x256 .f32) (x1 x2 : Vec Ideal S1x256 .f32) (x3 x4 : Vec Ideal S256 .f32)
    (y : S4000x256.Idx) (i : S20000x256.Idx) (hi : (i 1).val = (y 1).val)
    (h0 : x0 y = h i)
    (h1 : ∀ q : Fin 256, x1 (ix2 0 q) = colMean h q) (h2 : ∀ q : Fin 256, x2 (ix2 0 q) = colVar h q)
    (h3 : x3 = g) (h4 : x4 = b) :
    k1_pay1 x0 x1 x2 x3 x4 y = norm h g b i := by
  obtain ⟨p, q, rfl⟩ : ∃ (p : Fin 4000) (q : Fin 256), y = ix2 p q := ⟨y 0, y 1, eq_ix2 y⟩
  obtain ⟨r, s, rfl⟩ : ∃ (r : Fin 20000) (s : Fin 256), i = ix2 r s := ⟨i 0, i 1, eq_ix2 i⟩
  obtain rfl : s = q := Fin.ext hi
  subst h3 h4
  rw [pay_apply, norm_ix2, h0, h1, h2]
  rfl

/-- The block index maps at the five points: the hidden rows' block moves with the output's, both at column
    block 0; every other window sits at block 0. -/
theorem idx_facts : ∀ t : Fin cfg1.N,
      win1_0.index t (0 : Fin 2) = win1_5.index t (0 : Fin 2) ∧ win1_0.index t (1 : Fin 2) = 0
    ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 1) = 0 ∧ win1_4.index t (0 : Fin 1) = 0 :=
  (by decide +kernel : ∀ t : Fin grid1.N, _)

/-- What point `t` writes back is block `t` of the normalised array, whatever the launch finds in its arrays as
    long as they are the hidden array `h`, its two statistic rows and the parameters `g`, `b`. -/
theorem flushed_of (V : (c : Dev nD) → (b : Ref sig .tc) → Buf (Elt Ideal) ((c : Thread nD τ).loc b))
    (c : Dev nD) (t : Fin cfg1.N) (h : FVec Ideal S20000x256 .f32) (g b : FVec Ideal S256 .f32)
    (e0 : (V c main_v53 : S20000x256.Idx → EReal) = h)
    (e1 : ∀ q : Fin 256, (V c main_v57 : S1x256.Idx → EReal) (ix2 0 q) = colMean h q)
    (e2 : ∀ q : Fin 256, (V c main_v64 : S1x256.Idx → EReal) (ix2 0 q) = colVar h q)
    (e3 : (V c main_arg8 : S256.Idx → EReal) = g) (e4 : (V c main_arg9 : S256.Idx → EReal) = b) :
    (dat1 V c).flushed 5 t = ((cfg1.win 5).blk t).view.read (Elt Ideal) (norm h g b) := by
  show (cfg1.win 5).cut (grid1.coords t) ((dat1 V c).after 5 t) = _
  rw [after1_5]
  unfold out1_5
  rw [View.canon_unit_zero zeros2]
  simp only [View.ld_unit_zero (S := S4000x256) zeros2, View.ld_unit_zero (S := S1x256) zeros2,
    View.ld_unit_zero (S := S256) zeros1]
  obtain ⟨f0, f1, f2, f3, f4, f5, f6, f7, f8⟩ := idx_facts t
  funext y
  show k1_pay1 (iblk1 V c 0 t) (iblk1 V c 1 t) (iblk1 V c 2 t) (iblk1 V c 3 t) (iblk1 V c 4 t) y
      = norm h g b (((cfg1.win 5).blk t).view.emb y)
  refine point_eq h g b (iblk1 V c 0 t) (iblk1 V c 1 t) (iblk1 V c 2 t) (iblk1 V c 3 t) (iblk1 V c 4 t) y
    (((cfg1.win 5).blk t).view.emb y) ?_ ?_ ?_ ?_ ?_ ?_
  · show win1_5.index t (1 : Fin 2) * 256 + 1 * (y 1).val = (y 1).val
    omega
  · show V c main_v53 (((cfg1.win 0).blk t).view.emb y) = h (((cfg1.win 5).blk t).view.emb y)
    rw [e0]
    refine congrArg h (funext fun a => Fin.ext ?_)
    match a with
    | ⟨0, _⟩ => show win1_0.index t (0 : Fin 2) * 4000 + 1 * (y 0).val = win1_5.index t (0 : Fin 2) * 4000 + 1 * (y 0).val; omega
    | ⟨1, _⟩ => show win1_0.index t (1 : Fin 2) * 256 + 1 * (y 1).val = win1_5.index t (1 : Fin 2) * 256 + 1 * (y 1).val; omega
  · intro q
    show V c main_v57 (((cfg1.win 1).blk t).view.emb (ix2 0 q)) = colMean h q
    refine (congrArg (V c main_v57) (funext fun a => Fin.ext ?_)).trans (e1 q)
    match a with
    | ⟨0, _⟩ => show win1_1.index t (0 : Fin 2) * 1 + 1 * 0 = 0; omega
    | ⟨1, _⟩ => show win1_1.index t (1 : Fin 2) * 256 + 1 * q.val = q.val; omega
  · intro q
    show V c main_v64 (((cfg1.win 2).blk t).view.emb (ix2 0 q)) = colVar h q
    refine (congrArg (V c main_v64) (funext fun a => Fin.ext ?_)).trans (e2 q)
    match a with
    | ⟨0, _⟩ => show win1_2.index t (0 : Fin 2) * 1 + 1 * 0 = 0; omega
    | ⟨1, _⟩ => show win1_2.index t (1 : Fin 2) * 256 + 1 * q.val = q.val; omega
  · funext z
    show V c main_arg8 (((cfg1.win 3).blk t).view.emb z) = g z
    rw [e3]
    refine congrArg g (funext fun a => Fin.ext ?_)
    match a with
    | ⟨0, _⟩ => show win1_3.index t (0 : Fin 1) * 256 + 1 * (z 0).val = (z 0).val; omega
  · funext z
    show V c main_arg9 (((cfg1.win 4).blk t).view.emb z) = b z
    rw [e4]
    refine congrArg b (funext fun a => Fin.ext ?_)
    match a with
    | ⟨0, _⟩ => show win1_4.index t (0 : Fin 1) * 256 + 1 * (z 0).val = (z 0).val; omega

/-- The array after the second launch: the normalised, rectified array of what the first launch left, with the
    scale and shift vectors as launched. -/
theorem final (m : (ℓ : Loc nD τ sig) → Buf (Elt Ideal) ℓ) (ρ : Dev nD → PrngReg) (c : Dev nD) :
    (dat1 (V3 m ρ) c).arrAt 5 cfg1.N = norm (W2 m ρ c (Proc.devRef .tc main_v53)) (m ((c : Thread nD τ).loc main_arg8)) (m ((c : Thread nD τ).loc main_arg9)) :=
  (dat1 (V3 m ρ) c).arrAt_eq_of_cover 5
    (norm (W2 m ρ c (Proc.devRef .tc main_v53)) (m ((c : Thread nD τ).loc main_arg8)) (m ((c : Thread nD τ).loc main_arg9)))
    (fun t _ => flushed_of (V3 m ρ) c t (W2 m ρ c (Proc.devRef .tc main_v53)) (m ((c : Thread nD τ).loc main_arg8))
      (m ((c : Thread nD τ).loc main_arg9)) (entry_hidden m ρ c) (entry_mean m ρ c) (entry_var m ρ c)
      (entry_scale m ρ c) (entry_shift m ρ c))
    Cert.KernelIdeal.NormCover.cover

end Cert.KernelIdeal.NormValue

end
-- ==== Proof.RefHid.lean ====
/-
  The reference's hidden array is the specification's.

  The reference lays the forward linear block and the backward linear block side by side along the feature axis.
  Each block, at node r and output feature q, is the contraction of the neighbour means with a transposed weight
  matrix, plus the bias, plus the contraction of the node's own features with a second transposed weight matrix.
  Both sides are the same sums over the same 256 input features in the same order; only the way an index is spelt
  differs, and the neighbour means and the transposed weights are the shared host values, named once.
-/
import proofs.«143934_j72954314490489_1_alg».proof.Proof.Gen.ReferenceIdeal.Read
import proofs.«143934_j72954314490489_1_alg».proof.Proof.Shared
import Idealize.ShloMosaic.Lib.Pipeline.Value
import Idealize.ShloMosaic.Lib.ValueIdx

noncomputable section

namespace Cert.SageNorm.RefHid

open Idealize.ShloMosaic Idealize.ShloMosaic.ValueIdx Cert.ReferenceIdeal Cert.ReferenceIdeal.Read Cert.SageNorm
open Cert.ReferenceIdeal.Facts₀ Cert.ReferenceIdeal.Facts

/-! ## The shared host values, named once -/

/-- The reference's forward neighbour means are the shared ones: the same host operations on the same arguments. -/
theorem v22_eq (x0 : (⟨S20000x256, .f32⟩ : BufTy).Contents (Elt Ideal)) (x1 : (⟨S2x320000, .i32⟩ : BufTy).Contents (Elt Ideal)) :
    val_main_v22 (F := Ideal) x0 x1 = aggrF x0 x1 := by
  unfold val_main_v22 val_main_v13 val_main_v21 val_main_v11 val_main_v12 val_main_v10 val_main_v9 val_main_v8
    val_main_v5 val_main_v7 val_main_v6 val_main_v4 val_main_v20 val_main_v19 val_main_v17 val_main_v18 val_main_v15
    val_main_v16 val_main_v14 val_main_v3 val_main_v2 val_main_v1 val_main_v0 val_main_c val_main_c_0 val_main_cst
    val_main_cst_1 val_main_cst_2 val_main_cst_3 aggrF meanAggr edgeRow0 edgeRow1
  rfl

/-- The reference's backward neighbour means are the shared ones, the two rows of the edge table exchanged. -/
theorem v49_eq (x0 : (⟨S20000x256, .f32⟩ : BufTy).Contents (Elt Ideal)) (x1 : (⟨S2x320000, .i32⟩ : BufTy).Contents (Elt Ideal)) :
    val_main_v49 (F := Ideal) x0 x1 = aggrB x0 x1 := by
  unfold val_main_v49 val_main_v40 val_main_v48 val_main_v38 val_main_v39 val_main_v37 val_main_v36 val_main_v35
    val_main_v32 val_main_v34 val_main_v33 val_main_v31 val_main_v47 val_main_v46 val_main_v44 val_main_v45 val_main_v42
    val_main_v43 val_main_v41 val_main_v3 val_main_v2 val_main_v1 val_main_v0 val_main_c_4 val_main_c_5 val_main_cst_6
    val_main_cst_7 val_main_cst_8 val_main_cst_9 aggrB meanAggr edgeRow0 edgeRow1
  rfl

/-- The four transposed weight matrices. -/
theorem v23_eq (x2 : (⟨S128x256, .f32⟩ : BufTy).Contents (Elt Ideal)) : val_main_v23 (F := Ideal) x2 = wT x2 := rfl
theorem v28_eq (x4 : (⟨S128x256, .f32⟩ : BufTy).Contents (Elt Ideal)) : val_main_v28 (F := Ideal) x4 = wT x4 := rfl
theorem v50_eq (x5 : (⟨S128x256, .f32⟩ : BufTy).Contents (Elt Ideal)) : val_main_v50 (F := Ideal) x5 = wT x5 := rfl
theorem v55_eq (x7 : (⟨S128x256, .f32⟩ : BufTy).Contents (Elt Ideal)) : val_main_v55 (F := Ideal) x7 = wT x7 := rfl

/-! ## The reference's index functions at an index given by coordinates -/

/-- The left operand of a block's first product is read at (r, k) … -/
theorem lidx24 (r : Fin 20000) (q : Fin 128) (k : Fin 256) : lidx_main_v24 (ix2 r q) k = ix2 r k :=
  funext fun a => Fin.ext (by match a with | ⟨0, _⟩ => rfl | ⟨1, _⟩ => rfl)
/-- … and the right one at (k, q). -/
theorem ridx24 (r : Fin 20000) (q : Fin 128) (k : Fin 256) : ridx_main_v24 (ix2 r q) k = ix2 k q :=
  funext fun a => Fin.ext (by match a with | ⟨0, _⟩ => rfl | ⟨1, _⟩ => rfl)
theorem lidx29 (r : Fin 20000) (q : Fin 128) (k : Fin 256) : lidx_main_v29 (ix2 r q) k = ix2 r k :=
  funext fun a => Fin.ext (by match a with | ⟨0, _⟩ => rfl | ⟨1, _⟩ => rfl)
theorem ridx29 (r : Fin 20000) (q : Fin 128) (k : Fin 256) : ridx_main_v29 (ix2 r q) k = ix2 k q :=
  funext fun a => Fin.ext (by match a with | ⟨0, _⟩ => rfl | ⟨1, _⟩ => rfl)
theorem lidx51 (r : Fin 20000) (q : Fin 128) (k : Fin 256) : lidx_main_v51 (ix2 r q) k = ix2 r k :=
  funext fun a => Fin.ext (by match a with | ⟨0, _⟩ => rfl | ⟨1, _⟩ => rfl)
theorem ridx51 (r : Fin 20000) (q : Fin 128) (k : Fin 256) : ridx_main_v51 (ix2 r q) k = ix2 k q :=
  funext fun a => Fin.ext (by match a with | ⟨0, _⟩ => rfl | ⟨1, _⟩ => rfl)
theorem lidx56 (r : Fin 20000) (q : Fin 128) (k : Fin 256) : lidx_main_v56 (ix2 r q) k = ix2 r k :=
  funext fun a => Fin.ext (by match a with | ⟨0, _⟩ => rfl | ⟨1, _⟩ => rfl)
theorem ridx56 (r : Fin 20000) (q : Fin 128) (k : Fin 256) : ridx_main_v56 (ix2 r q) k = ix2 k q :=
  funext fun a => Fin.ext (by match a with | ⟨0, _⟩ => rfl | ⟨1, _⟩ => rfl)
/-- The bias, made a row and repeated down the nodes, is read at q. -/
theorem bidx26 (r : Fin 20000) (q : Fin 128) : idx_main_v25 (idx_main_v26 (ix2 r q)) = ix1 q :=
  funext fun a => Fin.ext (by match a with | ⟨0, _⟩ => rfl)
theorem bidx53 (r : Fin 20000) (q : Fin 128) : idx_main_v52 (idx_main_v53 (ix2 r q)) = ix1 q :=
  funext fun a => Fin.ext (by match a with | ⟨0, _⟩ => rfl)

/-! ## The two linear blocks -/

/-- The reference's forward block at (r, q) is the specification's linear block of the forward means. -/
theorem fwd_eq (x0 : (⟨S20000x256, .f32⟩ : BufTy).Contents (Elt Ideal)) (x1 : (⟨S2x320000, .i32⟩ : BufTy).Contents (Elt Ideal)) (x2 : (⟨S128x256, .f32⟩ : BufTy).Contents (Elt Ideal)) (x3 : (⟨S128, .f32⟩ : BufTy).Contents (Elt Ideal)) (x4 : (⟨S128x256, .f32⟩ : BufTy).Contents (Elt Ideal)) (r : Fin 20000) (q : Fin 128) :
    val_main_v30 (F := Ideal) x0 x1 x2 x3 x4 (ix2 r q) = lin (aggrF x0 x1) x0 (wT x2) (wT x4) x3 r q := by
  rw [val_main_v30_apply, val_main_v27_apply, val_main_v24_apply, val_main_v26_apply, val_main_v25_apply,
    val_main_v29_apply, v22_eq, v23_eq, v28_eq]
  simp only [lidx24, ridx24, lidx29, ridx29, bidx26]
  rfl

/-- The reference's backward block at (r, q) is the specification's linear block of the backward means. -/
theorem bwd_eq (x0 : (⟨S20000x256, .f32⟩ : BufTy).Contents (Elt Ideal)) (x1 : (⟨S2x320000, .i32⟩ : BufTy).Contents (Elt Ideal)) (x5 : (⟨S128x256, .f32⟩ : BufTy).Contents (Elt Ideal)) (x6 : (⟨S128, .f32⟩ : BufTy).Contents (Elt Ideal)) (x7 : (⟨S128x256, .f32⟩ : BufTy).Contents (Elt Ideal)) (r : Fin 20000) (q : Fin 128) :
    val_main_v57 (F := Ideal) x0 x1 x5 x6 x7 (ix2 r q) = lin (aggrB x0 x1) x0 (wT x5) (wT x7) x6 r q := by
  rw [val_main_v57_apply, val_main_v54_apply, val_main_v51_apply, val_main_v53_apply, val_main_v52_apply,
    val_main_v56_apply, v49_eq, v50_eq, v55_eq]
  simp only [lidx51, ridx51, lidx56, ridx56, bidx53]
  rfl

/-! ## The concatenation -/

theorem hid_eq (x0 : (⟨S20000x256, .f32⟩ : BufTy).Contents (Elt Ideal)) (x1 : (⟨S2x320000, .i32⟩ : BufTy).Contents (Elt Ideal)) (x2 : (⟨S128x256, .f32⟩ : BufTy).Contents (Elt Ideal)) (x3 : (⟨S128, .f32⟩ : BufTy).Contents (Elt Ideal)) (x4 x5 : (⟨S128x256, .f32⟩ : BufTy).Contents (Elt Ideal)) (x6 : (⟨S128, .f32⟩ : BufTy).Contents (Elt Ideal)) (x7 : (⟨S128x256, .f32⟩ : BufTy).Contents (Elt Ideal)) :
    val_main_v58 (F := Ideal) x0 x1 x2 x3 x4 x5 x6 x7 = hid (aggrF x0 x1) (aggrB x0 x1) x0 (wT x2) (wT x4) (wT x5) (wT x7) x3 x6 := by
  funext i
  obtain ⟨r, j, rfl⟩ : ∃ (r : Fin 20000) (j : Fin 256), i = ix2 r j := ⟨i 0, i 1, eq_ix2 i⟩
  rw [hid_ix2]
  unfold hidAt val_main_v58
  by_cases hj : j.val < 128
  · rw [dif_pos hj, ← fwd_eq]
    exact concatenate_pair_apply_left (1 : Fin S20000x256.rank) _ _ concatenates_S20000x128_S20000x128_S20000x256_d1
      (ix2 r j) rfl (ix2 r ⟨j.val, hj⟩) (fun b => match b with | ⟨0, _⟩ => rfl | ⟨1, _⟩ => rfl)
  · rw [dif_neg hj, ← bwd_eq]
    exact concatenate_pair_apply_right (1 : Fin S20000x256.rank) _ _ concatenates_S20000x128_S20000x128_S20000x256_d1
      (ix2 r j) rfl rfl (ix2 r ⟨j.val - 128, by have := j.isLt; omega⟩)
      (fun b => match b with | ⟨0, _⟩ => fun _ => rfl | ⟨1, _⟩ => fun h => absurd rfl h)
      (by show (j.val - 128) + 128 = j.val; omega)

end Cert.SageNorm.RefHid

end
-- ==== Proof.RefNorm.lean ====
/-
  The reference's closing stages are the specification's normalisation of its hidden array, entry by entry.

  Write h for the hidden array (the reference's concatenated linear blocks, taken as given). The stages
  after it are: the column sum of h started from the zero word and divided by the word of 20000 (the mean μ);
  h minus the mean broadcast down the rows, squared, summed by column from the zero word and divided by the word
  of 20000 (the variance σ²); then (h − μ) · rsqrt(σ² + ε) · γ + β, and the maximum with the zero word. Every
  stage is read at one entry (r, j); a broadcast row read at (r, j) is the row at j. Both sides are then the same
  expression in h, the two parameter rows and the literal words.
-/
import proofs.«143934_j72954314490489_1_alg».proof.Proof.Gen.ReferenceIdeal.Read
import proofs.«143934_j72954314490489_1_alg».proof.Proof.Spec

noncomputable section

namespace Cert.SageNorm.RefNorm

open Idealize.ShloMosaic Idealize.ShloMosaic.ValueIdx Cert.ReferenceIdeal Cert.ReferenceIdeal.Read Cert.SageNorm

/-! ## Where each layout stage reads its operand, by coordinates -/

/-- The column sum's k-th term at column j is the entry (k, j). -/
theorem idx59 (j : Fin 256) (k : Fin 20000) : idx_main_v59 (ix1 j) k = ix2 k j :=
  funext fun a => Fin.ext (by match a with | ⟨0, _⟩ => rfl | ⟨1, _⟩ => rfl)

/-- The second column sum's k-th term at column j is the entry (k, j). -/
theorem idx66 (j : Fin 256) (k : Fin 20000) : idx_main_v66 (ix1 j) k = ix2 k j :=
  funext fun a => Fin.ext (by match a with | ⟨0, _⟩ => rfl | ⟨1, _⟩ => rfl)

/-- A row vector broadcast to one row and then down the 20000 rows, read at (r, j), is the vector at j. -/
theorem idx6362 (r : Fin 20000) (j : Fin 256) : idx_main_v62 (idx_main_v63 (ix2 r j)) = ix1 j :=
  funext fun a => Fin.ext (by match a with | ⟨0, _⟩ => rfl)
/-- The same for the mean's second broadcast (the one the normalised entry subtracts). -/
theorem idx7069 (r : Fin 20000) (j : Fin 256) : idx_main_v69 (idx_main_v70 (ix2 r j)) = ix1 j :=
  funext fun a => Fin.ext (by match a with | ⟨0, _⟩ => rfl)
/-- The same for the broadcast of rsqrt(σ² + ε). -/
theorem idx7675 (r : Fin 20000) (j : Fin 256) : idx_main_v75 (idx_main_v76 (ix2 r j)) = ix1 j :=
  funext fun a => Fin.ext (by match a with | ⟨0, _⟩ => rfl)
/-- The same for the broadcast of γ. -/
theorem idx7978 (r : Fin 20000) (j : Fin 256) : idx_main_v78 (idx_main_v79 (ix2 r j)) = ix1 j :=
  funext fun a => Fin.ext (by match a with | ⟨0, _⟩ => rfl)
/-- The same for the broadcast of β. -/
theorem idx8281 (r : Fin 20000) (j : Fin 256) : idx_main_v81 (idx_main_v82 (ix2 r j)) = ix1 j :=
  funext fun a => Fin.ext (by match a with | ⟨0, _⟩ => rfl)

/-! ## The column statistics -/

/-- The mean stage at column j is the specification's column mean of the hidden array. -/
theorem mean_apply (x0 : (⟨S20000x256, .f32⟩ : BufTy).Contents (Elt Ideal)) (x1 : (⟨S2x320000, .i32⟩ : BufTy).Contents (Elt Ideal)) (x2 : (⟨S128x256, .f32⟩ : BufTy).Contents (Elt Ideal)) (x3 : (⟨S128, .f32⟩ : BufTy).Contents (Elt Ideal)) (x4 x5 : (⟨S128x256, .f32⟩ : BufTy).Contents (Elt Ideal)) (x6 : (⟨S128, .f32⟩ : BufTy).Contents (Elt Ideal)) (x7 : (⟨S128x256, .f32⟩ : BufTy).Contents (Elt Ideal)) (j : Fin 256) :
    val_main_v61 (F := Ideal) x0 x1 x2 x3 x4 x5 x6 x7 (ix1 j) = colMean (val_main_v58 (F := Ideal) x0 x1 x2 x3 x4 x5 x6 x7) j := by
  unfold colMean
  rw [val_main_v61_apply, val_main_v59_apply, val_main_v60_apply, val_main_cst_10_apply, val_main_cst_11_apply]
  rw [Finset.sum_congr rfl fun k _ => congrArg (val_main_v58 (F := Ideal) x0 x1 x2 x3 x4 x5 x6 x7) (idx59 j k)]
  rfl

/-- The hidden array minus the broadcast mean, at (n, j), is the entry minus the column mean. -/
theorem centred_apply (x0 : (⟨S20000x256, .f32⟩ : BufTy).Contents (Elt Ideal)) (x1 : (⟨S2x320000, .i32⟩ : BufTy).Contents (Elt Ideal)) (x2 : (⟨S128x256, .f32⟩ : BufTy).Contents (Elt Ideal)) (x3 : (⟨S128, .f32⟩ : BufTy).Contents (Elt Ideal)) (x4 x5 : (⟨S128x256, .f32⟩ : BufTy).Contents (Elt Ideal)) (x6 : (⟨S128, .f32⟩ : BufTy).Contents (Elt Ideal)) (x7 : (⟨S128x256, .f32⟩ : BufTy).Contents (Elt Ideal)) (n : Fin 20000) (j : Fin 256) :
    val_main_v64 (F := Ideal) x0 x1 x2 x3 x4 x5 x6 x7 (ix2 n j) = (val_main_v58 (F := Ideal) x0 x1 x2 x3 x4 x5 x6 x7) (ix2 n j) - colMean (val_main_v58 (F := Ideal) x0 x1 x2 x3 x4 x5 x6 x7) j := by
  rw [val_main_v64_apply, val_main_v63_apply, val_main_v62_apply, idx6362, mean_apply]
  rfl

/-- The variance stage at column j is the specification's biased column variance of the hidden array. -/
theorem var_apply (x0 : (⟨S20000x256, .f32⟩ : BufTy).Contents (Elt Ideal)) (x1 : (⟨S2x320000, .i32⟩ : BufTy).Contents (Elt Ideal)) (x2 : (⟨S128x256, .f32⟩ : BufTy).Contents (Elt Ideal)) (x3 : (⟨S128, .f32⟩ : BufTy).Contents (Elt Ideal)) (x4 x5 : (⟨S128x256, .f32⟩ : BufTy).Contents (Elt Ideal)) (x6 : (⟨S128, .f32⟩ : BufTy).Contents (Elt Ideal)) (x7 : (⟨S128x256, .f32⟩ : BufTy).Contents (Elt Ideal)) (j : Fin 256) :
    val_main_v68 (F := Ideal) x0 x1 x2 x3 x4 x5 x6 x7 (ix1 j) = colVar (val_main_v58 (F := Ideal) x0 x1 x2 x3 x4 x5 x6 x7) j := by
  unfold colVar
  rw [val_main_v68_apply, val_main_v66_apply, val_main_v67_apply, val_main_cst_12_apply, val_main_cst_13_apply]
  rw [Finset.sum_congr rfl fun k _ => (congrArg (val_main_v65 (F := Ideal) x0 x1 x2 x3 x4 x5 x6 x7) (idx66 j k)).trans
    ((val_main_v65_apply (F := Ideal) x0 x1 x2 x3 x4 x5 x6 x7 (ix2 k j)).trans
      (congrArg (fun t => FloatOps.mulf (F := Ideal) (φ := .f32) t t) (centred_apply x0 x1 x2 x3 x4 x5 x6 x7 k j)))]
  rfl

/-! ## The result -/

/-- The reference's result is the normalised, rectified hidden array: at (r, j) both sides are
    max(((h(r, j) − μ(j)) · rsqrt(σ²(j) + ε)) · γ(j) + β(j), 0), with μ and σ² the column statistics above. -/
theorem norm_eq (x0 : (⟨S20000x256, .f32⟩ : BufTy).Contents (Elt Ideal)) (x1 : (⟨S2x320000, .i32⟩ : BufTy).Contents (Elt Ideal)) (x2 : (⟨S128x256, .f32⟩ : BufTy).Contents (Elt Ideal)) (x3 : (⟨S128, .f32⟩ : BufTy).Contents (Elt Ideal)) (x4 x5 : (⟨S128x256, .f32⟩ : BufTy).Contents (Elt Ideal)) (x6 : (⟨S128, .f32⟩ : BufTy).Contents (Elt Ideal)) (x7 : (⟨S128x256, .f32⟩ : BufTy).Contents (Elt Ideal)) (x8 x9 : (⟨S256, .f32⟩ : BufTy).Contents (Elt Ideal)) :
    val_main_v84 (F := Ideal) x0 x1 x2 x3 x4 x5 x6 x7 x8 x9 = norm (val_main_v58 (F := Ideal) x0 x1 x2 x3 x4 x5 x6 x7) x8 x9 := by
  funext i
  obtain ⟨r, j, rfl⟩ : ∃ (r : Fin 20000) (j : Fin 256), i = ix2 r j := ⟨i 0, i 1, eq_ix2 i⟩
  rw [norm_ix2]
  unfold normAt
  rw [val_main_v84_apply, val_main_v83_apply, val_main_v80_apply, val_main_v77_apply, val_main_v71_apply,
    val_main_v70_apply, val_main_v69_apply, idx7069, mean_apply,
    val_main_v76_apply, val_main_v75_apply, idx7675, val_main_v74_apply, val_main_v73_apply, var_apply,
    val_main_v72_apply, val_main_cst_14_apply,
    val_main_v79_apply, val_main_v78_apply, idx7978,
    val_main_v82_apply, val_main_v81_apply, idx8281,
    val_main_call0_v0_apply, val_main_call0_cst_apply]
  rfl

end Cert.SageNorm.RefNorm

end
-- ==== Proof.lean ====
/-
  A two-direction mean-aggregation graph layer with batch normalisation, against its plain reference, on the
  extended reals.

  Each of the 20000 nodes has 256 features. For either direction of the 320000 edges the neighbours' feature rows
  are averaged per node (a gather, two scatter-adds and a division on the host — the same operations in both
  programs, so they are named once and carried as one function). A direction's linear block sends a node to 128 features:
  the contraction of its neighbour mean with one weight matrix, plus a bias, plus the contraction of its own
  features with a second weight matrix. The two blocks side by side are the hidden array [20000, 256]; it is
  normalised column by column over all nodes (mean, biased variance, rsqrt of variance plus a small word), scaled,
  shifted and rectified.

  The kernel computes the hidden array in one launch over five row blocks of 4000 nodes (matrix products into zero
  accumulators, on bf16 copies that are the identity on the extended reals), the column statistics on the host,
  and the normalisation in a second launch over the same row blocks; the reference does everything with host
  operations. Entry by entry both are the same sums and the same expression in the same order, so no law of the
  extended reals beyond reading each operation at an index is used, and the precondition is not needed.

  The pieces: the specification (Spec), the shared host values (Shared), the kernel's run with its result named
  (KRun), what each launch leaves (KHid, KNorm), the reference's stages read against the specification (RefHid,
  RefNorm). Here they are put together.
-/
import proofs.«143934_j72954314490489_1_alg».proof.Defs
import proofs.«143934_j72954314490489_1_alg».proof.Proof.Gen.Kernel
import proofs.«143934_j72954314490489_1_alg».proof.Proof.Gen.Kernel.Frame
import proofs.«143934_j72954314490489_1_alg».proof.Proof.Gen.KernelIdeal
import proofs.«143934_j72954314490489_1_alg».proof.Proof.Gen.KernelIdeal.Frame
import proofs.«143934_j72954314490489_1_alg».proof.Proof.Gen.ReferenceIdeal
import proofs.«143934_j72954314490489_1_alg».proof.Proof.Gen.Pre_finite_inputs
import proofs.«143934_j72954314490489_1_alg».proof.Proof.Gen.ReferenceIdeal.Run
import proofs.«143934_j72954314490489_1_alg».proof.Proof.Gen.ReferenceIdeal.Read
import proofs.«143934_j72954314490489_1_alg».proof.Proof.Shared
import proofs.«143934_j72954314490489_1_alg».proof.Proof.KRun
import proofs.«143934_j72954314490489_1_alg».proof.Proof.KHid
import proofs.«143934_j72954314490489_1_alg».proof.Proof.KNorm
import proofs.«143934_j72954314490489_1_alg».proof.Proof.RefHid
import proofs.«143934_j72954314490489_1_alg».proof.Proof.RefNorm

noncomputable section

namespace Cert.Proof.Claims

open Idealize.ShloMosaic Idealize.ShloMosaic.TcCoe Idealize.SL.Sem Cert.SageNorm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten for the reading on the extended reals: nothing is owed. -/
theorem preserves : Cert.preserves_Kernel_KernelIdeal := trivial

/-- The common result on device `c`, as a function of the argument arrays: the normalised, rectified hidden array. -/
def result (m : (ℓ : Loc Cert.KernelIdeal.nD Cert.KernelIdeal.τ Cert.KernelIdeal.sig) → Buf (Elt Ideal) ℓ)
    (c : Dev Cert.KernelIdeal.nD) : FVec Ideal SN .f32 :=
  norm (hid (aggrF (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (aggrB (m ((c.tc : Thread Cert.KernelIdeal.nD Cert.KernelIdeal.τ).loc Cert.KernelIdeal.main_arg0)) (m ((c.tc : Thread Cert.KernelIdeal.nD Cert.KernelIdeal.τ).loc Cert.KernelIdeal.main_arg1))) (m ((c.tc : Thread Cert.KernelIdeal.nD Cert.KernelIdeal.τ).loc Cert.KernelIdeal.main_arg0))
      (wT (m ((c.tc : Thread Cert.KernelIdeal.nD Cert.KernelIdeal.τ).loc Cert.KernelIdeal.main_arg2))) (wT (m ((c.tc : Thread Cert.KernelIdeal.nD Cert.KernelIdeal.τ).loc Cert.KernelIdeal.main_arg4))) (wT (m ((c.tc : Thread Cert.KernelIdeal.nD Cert.KernelIdeal.τ).loc Cert.KernelIdeal.main_arg5))) (wT (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg6)))
    (m ((c.tc : Thread Cert.KernelIdeal.nD Cert.KernelIdeal.τ).loc Cert.KernelIdeal.main_arg8)) (m ((c.tc : Thread Cert.KernelIdeal.nD Cert.KernelIdeal.τ).loc Cert.KernelIdeal.main_arg9))

/-- After the kernel program's run on the extended reals the result array holds the common result: the second launch leaves the
    normalisation of what the first launch left, and the first launch leaves the hidden array. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W4 m ρ c (Proc.devRef .tc Cert.KernelIdeal.main_v65) = result m c := by
  refine (Cert.KernelIdeal.Gen.W4_arr m ρ c 5).trans ?_
  refine (Cert.KernelIdeal.NormValue.final m ρ c).trans ?_
  refine congrArg (fun h => norm h _ _) ?_
  refine (Cert.KernelIdeal.Gen.W2_arr m ρ c 9).trans ?_
  exact Cert.KernelIdeal.HidValue.final m ρ c

/-- Both programs read on the extended reals, run from memories that agree on the arguments, end with the common result: the
    reference's run states its result as its operations' composed term, which is the normalisation of its hidden
    array, which is the specification's hidden array of the same arguments. -/
theorem algebraic : Cert.algebraic_KernelIdeal_ReferenceIdeal := by
  intro m ρ m' ρ' _ hagree
  refine ⟨fun c => result m c, ?_, ?_⟩
  · exact (θ_run Cert.KernelIdeal.defs _ _).mono (fun r h c => ⟨(h c).1.trans (kernel_result m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9⟩ := hagree c
    rw [Cert.ReferenceIdeal.Read.val_main_v84_eq, Cert.SageNorm.RefNorm.norm_eq, Cert.SageNorm.RefHid.hid_eq,
      e0, e1, e2, e3, e4, e5, e6, e7, e8, e9]
    rfl

end Cert.Proof.Claims

namespace Cert.Proof
theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩
end Cert.Proof

end
